-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32768 : Shape := ⟨3, ![8, 64, 32768]⟩
abbrev S19x5x64 : Shape := ⟨3, ![19, 5, 64]⟩
abbrev S64 : Shape := ⟨1, ![64]⟩
abbrev S19 : Shape := ⟨1, ![19]⟩
abbrev S_ : Shape := ⟨0, ![]⟩

class Facts : Prop where
  bcast_S_S8x64x32768 : S_.BroadcastsInDim S8x64x32768 (![] : Fin 0 → Fin S8x64x32768.rank)
  reducesTo_S8x64x32768_S_d0_1_2 : S8x64x32768.ReducesTo [0, 1, 2] S_
  h_S_ : 0 < S_.numel
  bcast_S_S19x5x64 : S_.BroadcastsInDim S19x5x64 (![] : Fin 0 → Fin S19x5x64.rank)
  reducesTo_S19x5x64_S_d0_1_2 : S19x5x64.ReducesTo [0, 1, 2] S_
  bcast_S_S64 : S_.BroadcastsInDim S64 (![] : Fin 0 → Fin S64.rank)
  reducesTo_S64_S_d0 : S64.ReducesTo [0] S_
  bcast_S_S19 : S_.BroadcastsInDim S19 (![] : Fin 0 → Fin S19.rank)
  reducesTo_S19_S_d0 : S19.ReducesTo [0] S_

variable [Facts]

def fn_part2 {F : FTy → Type} [FloatOps F] (main_arg2 : FVec F S19x5x64 .f32) (main_v33 : IVec S_ 1) : IVec S_ 1 :=
  let main_cst_12 : FVec F S_ .f32 := constant S_ .f32 0x00000000#32
  let main_v34 : FVec F S19x5x64 .f32 := broadcastInDim S19x5x64 ![] bcast_S_S19x5x64 main_cst_12
  let main_v35 : IVec S19x5x64 1 := cmpf .ogt main_arg2 main_v34
  let main_c_13 : IVec S_ 1 := constantI S_ 1 1#1
  let main_v36 : IVec S_ 1 := (fun x v => Host.reduce IntOp.andi x v reducesTo_S19x5x64_S_d0_1_2 h_S_) main_v35 main_c_13
  let main_v37 : IVec S_ 1 := andi main_v33 main_v36
  main_v37

def fn_part1 {F : FTy → Type} [FloatOps F] (main_arg2 : FVec F S19x5x64 .f32) (main_arg4 : FVec F S64 .f32) (main_arg5 : FVec F S19 .f32) (main_arg6 : FVec F S19 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S19 .f32 := Host.absf main_arg5
  let main_cst_8 : FVec F S_ .f32 := constant S_ .f32 0x7F800000#32
  let main_v25 : FVec F S19 .f32 := broadcastInDim S19 ![] bcast_S_S19 main_cst_8
  let main_v26 : IVec S19 1 := cmpf .olt main_v24 main_v25
  let main_c_9 : IVec S_ 1 := constantI S_ 1 1#1
  let main_v27 : IVec S_ 1 := (fun x v => Host.reduce IntOp.andi x v reducesTo_S19_S_d0 h_S_) main_v26 main_c_9
  let main_v28 : IVec S_ 1 := andi main_v23 main_v27
  let main_v29 : FVec F S19 .f32 := Host.absf main_arg6
  let main_cst_10 : FVec F S_ .f32 := constant S_ .f32 0x7F800000#32
  let main_v30 : FVec F S19 .f32 := broadcastInDim S19 ![] bcast_S_S19 main_cst_10
  let main_v31 : IVec S19 1 := cmpf .olt main_v29 main_v30
  let main_c_11 : IVec S_ 1 := constantI S_ 1 1#1
  let main_v32 : IVec S_ 1 := (fun x v => Host.reduce IntOp.andi x v reducesTo_S19_S_d0 h_S_) main_v31 main_c_11
  let main_v33 : IVec S_ 1 := andi main_v28 main_v32
  fn_part2 (F := F) main_arg2 main_v33

def fn {F : FTy → Type} [FloatOps F] (main_arg0 : FVec F S8x64x32768 .f32) (main_arg1 : FVec F S19x5x64 .f32) (main_arg2 : FVec F S19x5x64 .f32) (main_arg3 : FVec F S64 .f32) (main_arg4 : FVec F S64 .f32) (main_arg5 : FVec F S19 .f32) (main_arg6 : FVec F S19 .f32) : IVec S_ 1 :=
  let main_v0 : FVec F S8x64x32768 .f32 := Host.absf main_arg0
  let main_cst : FVec F S_ .f32 := constant S_ .f32 0x7F800000#32
  let main_v1 : FVec F S8x64x32768 .f32 := broadcastInDim S8x64x32768 ![] bcast_S_S8x64x32768 main_cst
  let main_v2 : IVec S8x64x32768 1 := cmpf .olt main_v0 main_v1
  let main_c : IVec S_ 1 := constantI S_ 1 1#1
  let main_v3 : IVec S_ 1 := (fun x v => Host.reduce IntOp.andi x v reducesTo_S8x64x32768_S_d0_1_2 h_S_) main_v2 main_c
  let main_v4 : FVec F S19x5x64 .f32 := Host.absf main_arg1
  let main_cst_0 : FVec F S_ .f32 := constant S_ .f32 0x7F800000#32
  let main_v5 : FVec F S19x5x64 .f32 := broadcastInDim S19x5x64 ![] bcast_S_S19x5x64 main_cst_0
  let main_v6 : IVec S19x5x64 1 := cmpf .olt main_v4 main_v5
  let main_c_1 : IVec S_ 1 := constantI S_ 1 1#1
  let main_v7 : IVec S_ 1 := (fun x v => Host.reduce IntOp.andi x v reducesTo_S19x5x64_S_d0_1_2 h_S_) main_v6 main_c_1
  let main_v8 : IVec S_ 1 := andi main_v3 main_v7
  let main_v9 : FVec F S19x5x64 .f32 := Host.absf main_arg2
  let main_cst_2 : FVec F S_ .f32 := constant S_ .f32 0x7F800000#32
  let main_v10 : FVec F S19x5x64 .f32 := broadcastInDim S19x5x64 ![] bcast_S_S19x5x64 main_cst_2
  let main_v11 : IVec S19x5x64 1 := cmpf .olt main_v9 main_v10
  let main_c_3 : IVec S_ 1 := constantI S_ 1 1#1
  let main_v12 : IVec S_ 1 := (fun x v => Host.reduce IntOp.andi x v reducesTo_S19x5x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg4 main_arg5 main_arg6 main_v13 main_v16
-- ==== Kernel.lean ====
abbrev S8x64x32768 : Shape := ⟨3, ![8, 64, 32768]⟩
abbrev S19x5x64 : Shape := ⟨3, ![19, 5, 64]⟩
abbrev S64 : Shape := ⟨1, ![64]⟩
abbrev S19 : Shape := ⟨1, ![19]⟩
abbrev S_ : Shape := ⟨0, ![]⟩
abbrev S19x5 : Shape := ⟨2, ![19, 5]⟩
abbrev S19x5x1 : Shape := ⟨3, ![19, 5, 1]⟩
abbrev S5x19x64 : Shape := ⟨3, ![5, 19, 64]⟩
abbrev S5x19 : Shape := ⟨2, ![5, 19]⟩
abbrev S5x19x1 : Shape := ⟨3, ![5, 19, 1]⟩
abbrev S5x19x128 : Shape := ⟨3, ![5, 19, 128]⟩
abbrev S64x1 : Shape := ⟨2, ![64, 1]⟩
abbrev S19x1 : Shape := ⟨2, ![19, 1]⟩
abbrev S8x19x32768 : Shape := ⟨3, ![8, 19, 32768]⟩
abbrev S1x64x8192 : Shape := ⟨3, ![1, 64, 8192]⟩
abbrev S1x19x8192 : Shape := ⟨3, ![1, 19, 8192]⟩
abbrev S64x8192 : Shape := ⟨2, ![64, 8192]⟩
abbrev S8192 : Shape := ⟨1, ![8192]⟩
abbrev S1x8192 : Shape := ⟨2, ![1, 8192]⟩
abbrev S128x8192 : Shape := ⟨2, ![128, 8192]⟩
abbrev S1x19x128 : Shape := ⟨3, ![1, 19, 128]⟩
abbrev S19x128 : Shape := ⟨2, ![19, 128]⟩
abbrev S1x19x1 : Shape := ⟨3, ![1, 19, 1]⟩
abbrev S19x8192 : Shape := ⟨2, ![19, 8192]⟩

abbrev nBuf : Space → Nat
  | .hbm => 49
  | .vmem => 10
  | .smem => 0
  | _ => 0

abbrev bufTy : (tb : Table) → Fin (tcTables nBuf tb) → BufTy
  | .hbm, ⟨0, _⟩ => ⟨S8x64x32768, .f32⟩
  | .hbm, ⟨1, _⟩ => ⟨S19x5x64, .f32⟩
  | .hbm, ⟨2, _⟩ => ⟨S19x5x64, .f32⟩
  | .hbm, ⟨3, _⟩ => ⟨S64, .f32⟩
  | .hbm, ⟨4, _⟩ => ⟨S64, .f32⟩
  | .hbm, ⟨5, _⟩ => ⟨S19, .f32⟩
  | .hbm, ⟨6, _⟩ => ⟨S19, .f32⟩
  | .hbm, ⟨7, _⟩ => ⟨S19x5x64, .f32⟩
  | .hbm, ⟨8, _⟩ => ⟨S_, .f32⟩
  | .hbm, ⟨9, _⟩ => ⟨S19x5, .f32⟩
  | .hbm, ⟨10, _⟩ => ⟨S19x5x1, .f32⟩
  | .hbm, ⟨11, _⟩ => ⟨S19x5x1, .f32⟩
  | .hbm, ⟨12, _⟩ => ⟨S_, .f32⟩
  | .hbm, ⟨13, _⟩ => ⟨S19x5x1, .f32⟩
  | .hbm, ⟨14, _⟩ => ⟨S19x5x1, .f32⟩
  | .hbm, ⟨15, _⟩ => ⟨S19x5x64, .f32⟩
  | .hbm, ⟨16, _⟩ => ⟨S19x5x64, .f32⟩
  | .hbm, ⟨17, _⟩ => ⟨S5x19x64, .f32⟩
  | .hbm, ⟨18, _⟩ => ⟨S5x19x64, .f32⟩
  | .hbm, ⟨19, _⟩ => ⟨S5x19x64, .f32⟩
  | .hbm, ⟨20, _⟩ => ⟨S_, .f32⟩
  | .hbm, ⟨21, _⟩ => ⟨S5x19x64, .f32⟩
  | .hbm, ⟨22, _⟩ => ⟨S5x19x64, .f32⟩
  | .hbm, ⟨23, _⟩ => ⟨S5x19x64, .f32⟩
  | .hbm, ⟨24, _⟩ => ⟨S5x19x64, .f32⟩
  | .hbm, ⟨25, _⟩ => ⟨S5x19x64, .f32⟩
  | .hbm, ⟨26, _⟩ => ⟨S_, .f32⟩
  | .hbm, ⟨27, _⟩ => ⟨S5x19, .f32⟩
  | .hbm, ⟨28, _⟩ => ⟨S5x19x64, .f32⟩
  | .hbm, ⟨29, _⟩ => ⟨S_, .f32⟩
  | .hbm, ⟨30, _⟩ => ⟨S5x19, .f32⟩
  | .hbm, ⟨31, _⟩ => ⟨S_, .f32⟩
  | .hbm, ⟨32, _⟩ => ⟨S5x19, .f32⟩
  | .hbm, ⟨33, _⟩ => ⟨S5x19, .f32⟩
  | .hbm, ⟨34, _⟩ => ⟨S_, .f32⟩
  | .hbm, ⟨35, _⟩ => ⟨S5x19, .f32⟩
  | .hbm, ⟨36, _⟩ => ⟨S5x19, .f32⟩
  | .hbm, ⟨37, _⟩ => ⟨S5x19, .f32⟩
  | .hbm, ⟨38, _⟩ => ⟨S5x19x1, .f32⟩
  | .hbm, ⟨39, _⟩ => ⟨S_, .f32⟩
  | .hbm, ⟨40, _⟩ => ⟨S5x19x64, .f32⟩
  | .hbm, ⟨41, _⟩ => ⟨S5x19x64, .f32⟩
  | .hbm, ⟨42, _⟩ => ⟨S5x19x128, .f32⟩
  | .hbm, ⟨43, _⟩ => ⟨S5x19x128, .bf16⟩
  | .hbm, ⟨44, _⟩ => ⟨S64x1, .f32⟩
  | .hbm, ⟨45, _⟩ => ⟨S64x1, .f32⟩
  | .hbm, ⟨46, _⟩ => ⟨S19x1, .f32⟩
  | .hbm, ⟨47, _⟩ => ⟨S19x1, .f32⟩
  | .hbm, ⟨48, _⟩ => ⟨S8x19x32768, .f32⟩
  | .local _ .vmem, ⟨0, _⟩ => ⟨S1x64x8192, .f32⟩
  | .local _ .vmem, ⟨1, _⟩ => ⟨S1x64x8192, .f32⟩
  | .local _ .vmem, ⟨2, _⟩ => ⟨S5x19x128, .bf16⟩
  | .local _ .vmem, ⟨3, _⟩ => ⟨S5x19x1, .f32⟩
  | .local _ .vmem, ⟨4, _⟩ => ⟨S64x1, .f32⟩
  | .local _ .vmem, ⟨5, _⟩ => ⟨S64x1, .f32⟩
  | .local _ .vmem, ⟨6, _⟩ => ⟨S19x1, .f32⟩
  | .local _ .vmem, ⟨7, _⟩ => ⟨S19x1, .f32⟩
  | .local _ .vmem, ⟨8, _⟩ => ⟨S1x19x8192, .f32⟩
  | .local _ .vmem, ⟨9, _⟩ => ⟨S1x19x8192, .f32⟩
  | _, _ => ⟨S8x64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5x19x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5x19x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S19x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S19x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x19x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  reducesTo_S19x5x64_S19x5_d2 : S19x5x64.ReducesTo [2] S19x5
  h_S_ : 0 < S_.numel
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x64_0_1_2 : S19x5x1.BroadcastsInDim S19x5x64 (![0, 1, 2] : Fin 3 → Fin S19x5x64.rank)
  transposes_S19x5x64_S5x19x64_1_0_2 : S19x5x64.Transposes [1, 0, 2] S5x19x64
  bcast_S_S5x19x64 : S_.BroadcastsInDim S5x19x64 (![] : Fin 0 → Fin S5x19x64.rank)
  reducesTo_S5x19x64_S5x19_d2 : S5x19x64.ReducesTo [2] S5x19
  bcast_S_S5x19 : S_.BroadcastsInDim S5x19 (![] : Fin 0 → Fin S5x19.rank)
  shapeCasts_S5x19_S5x19x1 : S5x19.ShapeCasts S5x19x1
  concatenates_S5x19x64_S5x19x64_S5x19x128_d2 : Shape.Concatenates [S5x19x64, S5x19x64] S5x19x128 2
  bitsLt_bf16_f32 : FTy.bits .bf16 < FTy.bits .f32
  shapeCasts_S64_S64x1 : S64.ShapeCasts S64x1
  shapeCasts_S19_S19x1 : S19.ShapeCasts S19x1
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  reduces_S64x8192_S8192 : S64x8192.Reduces [0] S8192
  shapeCasts_S8192_S1x8192 : S8192.ShapeCasts S1x8192
  broadcasts_S1x8192_S64x8192 : S1x8192.Broadcasts S64x8192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  concatenates_S64x8192_S64x8192_S128x8192_d0 : Shape.Concatenates [S64x8192, S64x8192] S128x8192 0
  inb_S5x19x128_S1x19x128_0_0_0 : ∀ a, (![0, 0, 0] : Fin 3 → Nat) a + S1x19x128.size a ≤ S5x19x128.size a
  h_S1x19x128 : 0 < S1x19x128.numel
  shapeCasts_S1x19x128_S19x128 : S1x19x128.ShapeCasts S19x128
  inb_S5x19x1_S1x19x1_0_0_0 : ∀ a, (![0, 0, 0] : Fin 3 → Nat) a + S1x19x1.size a ≤ S5x19x1.size a
  h_S1x19x1 : 0 < S1x19x1.numel
  shapeCasts_S1x19x1_S19x1 : S1x19x1.ShapeCasts S19x1
  broadcasts_S19x1_S19x8192 : S19x1.Broadcasts S19x8192
  inb_S5x19x128_S1x19x128_1_0_0 : ∀ a, (![1, 0, 0] : Fin 3 → Nat) a + S1x19x128.size a ≤ S5x19x128.size a
  inb_S5x19x1_S1x19x1_1_0_0 : ∀ a, (![1, 0, 0] : Fin 3 → Nat) a + S1x19x1.size a ≤ S5x19x1.size a
  inb_S5x19x128_S1x19x128_2_0_0 : ∀ a, (![2, 0, 0] : Fin 3 → Nat) a + S1x19x128.size a ≤ S5x19x128.size a
  inb_S5x19x1_S1x19x1_2_0_0 : ∀ a, (![2, 0, 0] : Fin 3 → Nat) a + S1x19x1.size a ≤ S5x19x1.size a
  inb_S5x19x128_S1x19x128_3_0_0 : ∀ a, (![3, 0, 0] : Fin 3 → Nat) a + S1x19x128.size a ≤ S5x19x128.size a
  inb_S5x19x1_S1x19x1_3_0_0 : ∀ a, (![3, 0, 0] : Fin 3 → Nat) a + S1x19x1.size a ≤ S5x19x1.size a
  inb_S5x19x128_S1x19x128_4_0_0 : ∀ a, (![4, 0, 0] : Fin 3 → Nat) a + S1x19x128.size a ≤ S5x19x128.size a
  inb_S5x19x1_S1x19x1_4_0_0 : ∀ a, (![4, 0, 0] : Fin 3 → Nat) a + S1x19x1.size a ≤ S5x19x1.size a
  reduces_S19x8192_S8192 : S19x8192.Reduces [0] S8192
  broadcasts_S1x8192_S19x8192 : S1x8192.Broadcasts S19x8192
  inb_S19x1_S19x1_0_0 : ∀ a, (![0, 0] : Fin 2 → Nat) a + S19x1.size a ≤ S19x1.size a
  h_S19x1 : 0 < S19x1.numel
  shapeCasts_S19x1_S19x1 : S19x1.ShapeCasts S19x1
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S19x8192 : S1x19x8192.ShapeCasts S19x8192
  shapeCasts_S19x8192_S1x19x8192 : S19x8192.ShapeCasts S1x19x8192
  dot_S19x128_S128x8192_S19x8192_1_0_0_1_n_n_wf : DotDims.WF S19x128 S128x8192 S19x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S8x64x32768.size a
  hwx0_0 : ∀ i : grid0.Coords, EltTy.bits .f32 = 32 ∨ (Rect.block (s := S8x64x32768) S1x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x19x128.size a ≤ S5x19x128.size a
  hwx0_1 : ∀ i : grid0.Coords, EltTy.bits .bf16 = 32 ∨ (Rect.block (s := S5x19x128) S5x19x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x19x1.size a ≤ S5x19x1.size a
  hwx0_2 : ∀ i : grid0.Coords, EltTy.bits .f32 = 32 ∨ (Rect.block (s := S5x19x1) S5x19x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S19x1.size a ≤ S19x1.size a
  hwx0_5 : ∀ i : grid0.Coords, EltTy.bits .f32 = 32 ∨ (Rect.block (s := S19x1) S19x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S19x1.size a ≤ S19x1.size a
  hwx0_6 : ∀ i : grid0.Coords, EltTy.bits .f32 = 32 ∨ (Rect.block (s := S19x1) S19x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x19x8192.size a ≤ S8x19x32768.size a
  hwx0_7 : ∀ i : grid0.Coords, EltTy.bits .f32 = 32 ∨ (Rect.block (s := S8x19x32768) S1x19x8192.size (cc0_transform_7 i) (hinb0_7 i)).WholeWords (EltTy.packing .f32)

variable [Facts₀]

def dot_S19x128_S128x8192_S19x8192_1_0_0_1_n_n : DotDims S19x128 S128x8192 S19x8192 where
  lhsContracting := [1]
  rhsContracting := [0]
  lhsNonContracting := [0]
  rhsNonContracting := [1]
  lhsBatch := []
  rhsBatch := []
  wf := dot_S19x128_S128x8192_S19x8192_1_0_0_1_n_n_wf

abbrev win0_0 : Pipeline.Window sig grid0 :=
  Pipeline.Window.ofSpec (Memref.whole main_arg0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5x19x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5x19x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S19x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S19x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x19x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x64x32768 : Shape := ⟨3, ![8, 64, 32768]⟩
abbrev S19x5x64 : Shape := ⟨3, ![19, 5, 64]⟩
abbrev S64 : Shape := ⟨1, ![64]⟩
abbrev S19 : Shape := ⟨1, ![19]⟩
abbrev S8x32768x64 : Shape := ⟨3, ![8, 32768, 64]⟩
abbrev S262144x64 : Shape := ⟨2, ![262144, 64]⟩
abbrev S_ : Shape := ⟨0, ![]⟩
abbrev S262144 : Shape := ⟨1, ![262144]⟩
abbrev S262144x1 : Shape := ⟨2, ![262144, 1]⟩
abbrev S1x64 : Shape := ⟨2, ![1, 64]⟩
abbrev S19x5 : Shape := ⟨2, ![19, 5]⟩
abbrev S19x5x1 : Shape := ⟨3, ![19, 5, 1]⟩
abbrev S95x64 : Shape := ⟨2, ![95, 64]⟩
abbrev S64x95 : Shape := ⟨2, ![64, 95]⟩
abbrev S262144x95 : Shape := ⟨2, ![262144, 95]⟩
abbrev S95 : Shape := ⟨1, ![95]⟩
abbrev S1x95 : Shape := ⟨2, ![1, 95]⟩
abbrev S262144x19x5 : Shape := ⟨3, ![262144, 19, 5]⟩
abbrev S262144x19 : Shape := ⟨2, ![262144, 19]⟩
abbrev S1x19 : Shape := ⟨2, ![1, 19]⟩
abbrev S8x32768x19 : Shape := ⟨3, ![8, 32768, 19]⟩
abbrev S8x19x32768 : Shape := ⟨3, ![8, 19, 32768]⟩

abbrev nBuf : Space → Nat
  | .hbm => 131
  | .vmem => 0
  | .smem => 0
  | _ => 0

abbrev hbmTy0_0 (i : Nat) : BufTy := match i % 128 with
  | 0 => ⟨S8x64x32768, .f32⟩
  | 1 => ⟨S19x5x64, .f32⟩
  | 2 => ⟨S19x5x64, .f32⟩
  | 3 => ⟨S64, .f32⟩
  | 4 => ⟨S64, .f32⟩
  | 5 => ⟨S19, .f32⟩
  | 6 => ⟨S19, .f32⟩
  | 7 => ⟨S8x32768x64, .f32⟩
  | 8 => ⟨S262144x64, .f32⟩
  | 9 => ⟨S_, .f32⟩
  | 10 => ⟨S262144, .f32⟩
  | 11 => ⟨S262144x1, .f32⟩
  | 12 => ⟨S_, .f32⟩
  | 13 => ⟨S262144x1, .f32⟩
  | 14 => ⟨S262144x1, .f32⟩
  | 15 => ⟨S262144x64, .f32⟩
  | 16 => ⟨S262144x64, .f32⟩
  | 17 => ⟨S262144x64, .f32⟩
  | 18 => ⟨S_, .f32⟩
  | 19 => ⟨S262144, .f32⟩
  | 20 => ⟨S262144x1, .f32⟩
  | 21 => ⟨S_, .f32⟩
  | 22 => ⟨S262144x1, .f32⟩
  | 23 => ⟨S262144x1, .f32⟩
  | 24 => ⟨S262144x64, .f32⟩
  | 25 => ⟨S262144x64, .f32⟩
  | 26 => ⟨S_, .f32⟩
  | 27 => ⟨S262144x1, .f32⟩
  | 28 => ⟨S262144x1, .f32⟩
  | 29 => ⟨S262144x1, .f32⟩
  | 30 => ⟨S262144x64, .f32⟩
  | 31 => ⟨S262144x64, .f32⟩
  | 32 => ⟨S1x64, .f32⟩
  | 33 => ⟨S262144x64, .f32⟩
  | 34 => ⟨S262144x64, .f32⟩
  | 35 => ⟨S1x64, .f32⟩
  | 36 => ⟨S262144x64, .f32⟩
  | 37 => ⟨S262144x64, .f32⟩
  | 38 => ⟨S262144x64, .f32⟩
  | 39 => ⟨S_, .f32⟩
  | 40 => ⟨S262144, .f32⟩
  | 41 => ⟨S262144x1, .f32⟩
  | 42 => ⟨S262144x1, .f32⟩
  | 43 => ⟨S_, .f32⟩
  | 44 => ⟨S262144x1, .f32⟩
  | 45 => ⟨S262144x1, .f32⟩
  | 46 => ⟨S262144x64, .f32⟩
  | 47 => ⟨S262144x64, .f32⟩
  | 48 => ⟨S19x5x64, .f32⟩
  | 49 => ⟨S_, .f32⟩
  | 50 => ⟨S19x5, .f32⟩
  | 51 => ⟨S19x5x1, .f32⟩
  | 52 => ⟨S19x5x1, .f32⟩
  | 53 => ⟨S_, .f32⟩
  | 54 => ⟨S19x5x1, .f32⟩
  | 55 => ⟨S19x5x1, .f32⟩
  | 56 => ⟨S19x5x64, .f32⟩
  | 57 => ⟨S19x5x64, .f32⟩
  | 58 => ⟨S95x64, .f32⟩
  | 59 => ⟨S95x64, .f32⟩
  | 60 => ⟨S95x64, .f32⟩
  | 61 => ⟨S_, .f32⟩
  | 62 => ⟨S95x64, .f32⟩
  | 63 => ⟨S95x64, .f32⟩
  | 64 => ⟨S262144x64, .f32⟩
  | 65 => ⟨S64x95, .f32⟩
  | 66 => ⟨S262144x95, .f32⟩
  | 67 => ⟨S95x64, .f32⟩
  | 68 => ⟨S64x95, .f32⟩
  | 69 => ⟨S262144x95, .f32⟩
  | 70 => ⟨S_, .f32⟩
  | 71 => ⟨S262144x95, .f32⟩
  | 72 => ⟨S262144x95, .f32⟩
  | 73 => ⟨S262144x95, .f32⟩
  | 74 => ⟨S95x64, .f32⟩
  | 75 => ⟨S95x64, .f32⟩
  | 76 => ⟨S_, .f32⟩
  | 77 => ⟨S95, .f32⟩
  | 78 => ⟨S1x95, .f32⟩
  | 79 => ⟨S262144x95, .f32⟩
  | 80 => ⟨S262144x95, .f32⟩
  | 81 => ⟨S95x64, .f32⟩
  | 82 => ⟨S_, .f32⟩
  | 83 => ⟨S95, .f32⟩
  | 84 => ⟨S_, .f32⟩
  | 85 => ⟨S_, .f32⟩
  | 86 => ⟨S_, .f32⟩
  | 87 => ⟨S_, .f32⟩
  | 88 => ⟨S_, .f32⟩
  | 89 => ⟨S95, .f32⟩
  | 90 => ⟨S95, .f32⟩
  | 91 => ⟨S_, .f32⟩
  | 92 => ⟨S262144x95, .f32⟩
  | 93 => ⟨S262144x95, .f32⟩
  | 94 => ⟨S1x95, .f32⟩
  | 95 => ⟨S262144x95, .f32⟩
  | 96 => ⟨S262144x95, .f32⟩
  | 97 => ⟨S262144x19x5, .f32⟩
  | 98 => ⟨S_, .f32⟩
  | 99 => ⟨S262144x19, .f32⟩
  | 100 => ⟨S_, .f32⟩
  | 101 => ⟨S262144, .f32⟩
  | 102 => ⟨S262144x1, .f32⟩
  | 103 => ⟨S_, .f32⟩
  | 104 => ⟨S262144x1, .f32⟩
  | 105 => ⟨S262144x1, .f32⟩
  | 106 => ⟨S262144x19, .f32⟩
  | 107 => ⟨S262144x19, .f32⟩
  | 108 => ⟨S262144x19, .f32⟩
  | 109 => ⟨S_, .f32⟩
  | 110 => ⟨S262144, .f32⟩
  | 111 => ⟨S262144x1, .f32⟩
  | 112 => ⟨S_, .f32⟩
  | 113 => ⟨S262144x1, .f32⟩
  | 114 => ⟨S262144x1, .f32⟩
  | 115 => ⟨S262144x19, .f32⟩
  | 116 => ⟨S262144x19, .f32⟩
  | 117 => ⟨S_, .f32⟩
  | 118 => ⟨S262144x1, .f32⟩
  | 119 => ⟨S262144x1, .f32⟩
  | 120 => ⟨S262144x1, .f32⟩
  | 121 => ⟨S262144x19, .f32⟩
  | 122 => ⟨S262144x19, .f32⟩
  | 123 => ⟨S1x19, .f32⟩
  | 124 => ⟨S262144x19, .f32⟩
  | 125 => ⟨S262144x19, .f32⟩
  | 126 => ⟨S1x19, .f32⟩
  | 127 => ⟨S262144x19, .f32⟩
  | _ => ⟨S8x64x32768, .f32⟩

abbrev hbmTy0_1 (i : Nat) : BufTy := match i % 128 with
  | 0 => ⟨S262144x19, .f32⟩
  | 1 => ⟨S8x32768x19, .f32⟩
  | 2 => ⟨S8x19x32768, .f32⟩
  | _ => ⟨S8x64x32768, .f32⟩

abbrev hbmTy (i : Nat) : BufTy := match i / 128 with
  | 0 => hbmTy0_0 i
  | 1 => hbmTy0_1 i
  | _ => ⟨S8x64x32768, .f32⟩

abbrev bufTy : (tb : Table) → Fin (tcTables nBuf tb) → BufTy
  | .hbm, ⟨i, _⟩ => hbmTy i
  | _, _ => ⟨S8x64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]

class Facts₀ : Prop where
  transposes_S8x64x32768_S8x32768x64_0_2_1 : S8x64x32768.Transposes [0, 2, 1] S8x32768x64
  shapeCasts_S8x32768x64_S262144x64 : S8x32768x64.ShapeCasts S262144x64
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S19x5x64_S19x5_d2 : S19x5x64.ReducesTo [2] S19x5
  bcast_S19x5_S19x5x1_0_1 : S19x5.BroadcastsInDim S19x5x1 (![0, 1] : Fin 2 → Fin S19x5x1.rank)
  bcast_S_S19x5x1 : S_.BroadcastsInDim S19x5x1 (![] : Fin 0 → Fin S19x5x1.rank)
  bcast_S19x5x1_S19x5x64_0_1_2 : S19x5x1.BroadcastsInDim S19x5x64 (![0, 1, 2] : Fin 3 → Fin S19x5x64.rank)
  shapeCasts_S19x5x64_S95x64 : S19x5x64.ShapeCasts S95x64
  bcast_S_S95x64 : S_.BroadcastsInDim S95x64 (![] : Fin 0 → Fin S95x64.rank)
  transposes_S95x64_S64x95_1_0 : S95x64.Transposes [1, 0] S64x95
  bcast_S_S262144x95 : S_.BroadcastsInDim S262144x95 (![] : Fin 0 → Fin S262144x95.rank)
  reducesTo_S95x64_S95_d1 : S95x64.ReducesTo [1] S95
  bcast_S95_S1x95_1 : S95.BroadcastsInDim S1x95 (![1] : Fin 1 → Fin S1x95.rank)
  bcast_S1x95_S262144x95_0_1 : S1x95.BroadcastsInDim S262144x95 (![0, 1] : Fin 2 → Fin S262144x95.rank)
  bcast_S_S95 : S_.BroadcastsInDim S95 (![] : Fin 0 → Fin S95.rank)
  shapeCasts_S262144x95_S262144x19x5 : S262144x95.ShapeCasts S262144x19x5
  reducesTo_S262144x19x5_S262144x19_d2 : S262144x19x5.ReducesTo [2] S262144x19
  reducesTo_S262144x19_S262144_d1 : S262144x19.ReducesTo [1] S262144
  bcast_S262144x1_S262144x19_0_1 : S262144x1.BroadcastsInDim S262144x19 (![0, 1] : Fin 2 → Fin S262144x19.rank)
  bcast_S19_S1x19_1 : S19.BroadcastsInDim S1x19 (![1] : Fin 1 → Fin S1x19.rank)
  bcast_S1x19_S262144x19_0_1 : S1x19.BroadcastsInDim S262144x19 (![0, 1] : Fin 2 → Fin S262144x19.rank)
  shapeCasts_S262144x19_S8x32768x19 : S262144x19.ShapeCasts S8x32768x19
  transposes_S8x32768x19_S8x19x32768_0_2_1 : S8x32768x19.Transposes [0, 2, 1] S8x19x32768
  dot_S262144x64_S64x95_S262144x95_1_0_0_1_n_n_wf : DotDims.WF S262144x64 S64x95 S262144x95 [1] [0] [0] [1] [] []

variable [Facts₀]

def dot_S262144x64_S64x95_S262144x95_1_0_0_1_n_n : DotDims S262144x64 S64x95 S262144x95 where
  lhsContracting := [1]
  rhsContracting := [0]
  lhsNonContracting := [0]
  rhsNonContracting := [1]
  lhsBatch := []
  rhsBatch := []
  wf := dot_S262144x64_S64x95_S262144x95_1_0_0_1_n_n_wf

class Facts : Prop extends Facts₀ where

variable [Facts]
-- ==== Proof.Spec.lean ====
/-
  The function both programs compute, written once on the extended reals.

  A pixel is a column of 64 features. The column is normalised twice: first to zero mean and unit variance over its
  64 entries (with a small constant under the root), scaled and shifted entry by entry; then to unit Euclidean length
  (the length bounded below by a tiny constant). Every class `k` has five Gaussian components `p` with a mean row
  (normalised to unit length the same way) and a row of standard deviations `s`; the log-density of the normalised
  column under a component is, up to the arrangement of its terms,
      -1/2 · Σ_d (x_d - μ_d)² / s_d²  -  Σ_d log s_d  -  (a constant).
  A class's score is the largest of its five log-densities, and the nineteen scores of a pixel are again normalised to
  zero mean and unit variance, scaled and shifted.

  The two programs differ in the arrangement of the quadratic form (`logpK` expands the square and keeps the three
  sums apart, with the factor -1/2 folded into the coefficients; `logpR` forms the square first and halves it) and in
  the constant (a literal against 32 · log of a literal). `kout` is the final normalisation.
-/
import Idealize.ShloMosaic.PureOps.Ideal
import Idealize.ShloMosaic.Lib.ValueIdx

noncomputable section

namespace Cert.Gmm

open Idealize.ShloMosaic
open scoped BigOperators

/-! ## The literals, as the extended reals their words denote -/

def c64 : EReal := Ideal.ofBits .f32 0x42800000#32
def c19 : EReal := Ideal.ofBits .f32 0x41980000#32
def eps5 : EReal := Ideal.ofBits .f32 0x3727C5AC#32
def eps12 : EReal := Ideal.ofBits .f32 0x2B8CBCCC#32
def cOne : EReal := Ideal.ofBits .f32 0x3F800000#32
def cMinusHalf : EReal := Ideal.ofBits .f32 0xBF000000#32
def cTwo : EReal := Ideal.ofBits .f32 0x40000000#32
def c32 : EReal := Ideal.ofBits .f32 0x42000000#32
def cTwoPi : EReal := Ideal.ofBits .f32 0x40C90FDB#32
def cLogNorm : EReal := Ideal.ofBits .f32 0x426B3F8E#32

/-! ## A pixel's column, normalised -/

/-- The mean of the 64 entries. -/
def fmean (col : Fin 64 → EReal) : EReal := Ideal.div (∑ d, col d) c64
/-- Their variance about the mean. -/
def fvar (col : Fin 64 → EReal) : EReal := Ideal.div (∑ d, (col d - fmean col) * (col d - fmean col)) c64
/-- The standardised entry, scaled by `w` and shifted by `b`. -/
def fhat (col w b : Fin 64 → EReal) (d : Fin 64) : EReal :=
  (col d - fmean col) * Ideal.rsqrt (fvar col + eps5) * w d + b d
/-- The Euclidean length of the standardised column, bounded below. -/
def fnorm (col w b : Fin 64 → EReal) : EReal := max (Ideal.sqrt (∑ d, fhat col w b d * fhat col w b d)) eps12
/-- The unit-length column. -/
def xn (col w b : Fin 64 → EReal) (d : Fin 64) : EReal := Ideal.div (fhat col w b d) (fnorm col w b)

/-! ## A component's rows -/

/-- The Euclidean length of a mean row, bounded below. -/
def mnorm (mu : Fin 64 → EReal) : EReal := max (Ideal.sqrt (∑ d, mu d * mu d)) eps12
/-- The unit-length mean row. -/
def mun (mu : Fin 64 → EReal) (d : Fin 64) : EReal := Ideal.div (mu d) (mnorm mu)
/-- The reciprocal of the squared standard deviation. -/
def inv2 (s : Fin 64 → EReal) (d : Fin 64) : EReal := Ideal.div cOne (s d * s d)

/-! ## The log-density of a unit column `x` under a component, in the two arrangements -/

/-- The square expanded, -1/2 folded into the coefficient of the squares, the constant a literal. -/
def logpK (mu s x : Fin 64 → EReal) : EReal :=
  ((∑ d, (cMinusHalf * inv2 s d) * (x d * x d)) + (∑ d, (mun mu d * inv2 s d) * x d))
    + (cMinusHalf * (∑ d, (mun mu d * mun mu d) * inv2 s d) - ((∑ d, Ideal.log (s d)) + cLogNorm))

/-- The quadratic form assembled from its three sums, halved, the constant 32 · log of a literal. -/
def logpR (mu s x : Fin 64 → EReal) : EReal :=
  cMinusHalf * (((∑ d, (x d * x d) * inv2 s d) - cTwo * (∑ d, x d * (mun mu d * inv2 s d)))
      + (∑ d, (mun mu d * mun mu d) * inv2 s d))
    - ((∑ d, Ideal.log (s d)) + c32 * Ideal.log cTwoPi)

/-- The largest of five, taken pairwise from the left. -/
def max5 (L : Fin 5 → EReal) : EReal := max (max (max (max (L 0) (L 1)) (L 2)) (L 3)) (L 4)

/-! ## The nineteen scores, normalised -/

def kmean (m : Fin 19 → EReal) : EReal := Ideal.div (∑ k, m k) c19
def kvar (m : Fin 19 → EReal) : EReal := Ideal.div (∑ k, (m k - kmean m) * (m k - kmean m)) c19
def kout (m w b : Fin 19 → EReal) (k : Fin 19) : EReal :=
  (m k - kmean m) * Ideal.rsqrt (kvar m + eps5) * w k + b k

/-! ## The two results at a pixel, as functions of the arguments' entries

  `col` is the pixel's column, `fw fb` the feature scale and shift, `mu k p` and `sd k p` the rows of class `k`'s
  component `p`, `mw mb` the score scale and shift. -/

def outK (col fw fb : Fin 64 → EReal) (mu sd : Fin 19 → Fin 5 → Fin 64 → EReal) (mw mb : Fin 19 → EReal) (k : Fin 19) :
    EReal :=
  kout (fun k' => max5 fun p => logpK (mu k' p) (sd k' p) (xn col fw fb)) mw mb k

def outR (col fw fb : Fin 64 → EReal) (mu sd : Fin 19 → Fin 5 → Fin 64 → EReal) (mw mb : Fin 19 → EReal) (k : Fin 19) :
    EReal :=
  kout (fun k' => (Finset.univ : Finset (Fin 5)).sup fun p => logpR (mu k' p) (sd k' p) (xn col fw fb)) mw mb k

end Cert.Gmm

end
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.Algebra.lean ====
/-
  The two arrangements of the score agree when every input is a real number and every standard deviation is positive.

  With real inputs every intermediate is a real number: a variance is a mean of squares, so the quantity under the
  reciprocal root is positive; a length is bounded below by a positive constant, so the division is by a nonzero real;
  a positive standard deviation has a real reciprocal square and a real logarithm. Over the reals the two log-densities
  of one component differ by the difference of the two constants only — the same real number for every class and
  component. The largest of five commutes with adding a constant, so the nineteen scores of one side are those of the
  other shifted by that constant; and the final normalisation subtracts the mean of the nineteen, which shifts by the
  same constant, so the centred scores, their variance and the result are unchanged.
-/
import proofs.«109077_j2095944040758_2_alg».proof.Proof.Spec
import proofs.«109077_j2095944040758_2_alg».proof.Proof.LibNegDot

noncomputable section

namespace Cert.Gmm

open Idealize.ShloMosaic
open scoped BigOperators
open Cert.LibNegDot (coe_sum)

/-! ## The literals: six exact values, two positive tolerances, a positive and a real constant -/

theorem c64_eq : c64 = ((64 : ℝ) : EReal) := by
  simp [c64, Ideal.ofBits, Ideal.ieee, -EReal.coe_mul]; norm_num
theorem c19_eq : c19 = ((19 : ℝ) : EReal) := by
  simp [c19, Ideal.ofBits, Ideal.ieee, -EReal.coe_mul]; norm_num
theorem cOne_eq : cOne = ((1 : ℝ) : EReal) := by
  simp [cOne, Ideal.ofBits, Ideal.ieee, -EReal.coe_mul]; norm_num
theorem cMinusHalf_eq : cMinusHalf = ((-(1 / 2) : ℝ) : EReal) := by
  simp [cMinusHalf, Ideal.ofBits, Ideal.ieee, -EReal.coe_mul]; norm_num
theorem cTwo_eq : cTwo = ((2 : ℝ) : EReal) := by
  simp [cTwo, Ideal.ofBits, Ideal.ieee, -EReal.coe_mul]; norm_num
theorem c32_eq : c32 = ((32 : ℝ) : EReal) := by
  simp [c32, Ideal.ofBits, Ideal.ieee, -EReal.coe_mul]; norm_num

theorem eps5_pos : ∃ r : ℝ, eps5 = r ∧ 0 < r := by
  simp [eps5, Ideal.ofBits, Ideal.ieee, -EReal.coe_mul]
theorem eps12_pos : ∃ r : ℝ, eps12 = r ∧ 0 < r := by
  simp [eps12, Ideal.ofBits, Ideal.ieee, -EReal.coe_mul]
theorem cTwoPi_pos : ∃ r : ℝ, cTwoPi = r ∧ 0 < r := by
  simp [cTwoPi, Ideal.ofBits, Ideal.ieee, -EReal.coe_mul]
theorem cLogNorm_real : ∃ r : ℝ, cLogNorm = r := by
  simp [cLogNorm, Ideal.ofBits, Ideal.ieee, -EReal.coe_mul]

/-- The larger of two reals, read in the extended reals, is the larger of the two read there. -/
theorem coe_max (x y : ℝ) : ((max x y : ℝ) : EReal) = max (x : EReal) (y : EReal) :=
  EReal.coe_strictMono.monotone.map_max

/-- The difference of the two constants: the literal of one arrangement less 32 · log of the other's. -/
def delta : ℝ := cLogNorm.toReal - 32 * Real.log cTwoPi.toReal

theorem cLogNorm_coe : cLogNorm = ((cLogNorm.toReal : ℝ) : EReal) := by
  obtain ⟨r, hr⟩ := cLogNorm_real
  rw [hr, EReal.toReal_coe]

theorem log_cTwoPi : Ideal.log cTwoPi = ((Real.log cTwoPi.toReal : ℝ) : EReal) := by
  obtain ⟨r, hr, hpos⟩ := cTwoPi_pos
  rw [hr, EReal.toReal_coe, Ideal.log_coe, if_neg (not_le.2 hpos)]

/-! ## Real inputs give real intermediates -/

/-- A real vector divided by its length (bounded below by the positive tolerance) is a real vector. -/
theorem unit_real (v : Fin 64 → EReal) (hv : ∀ d, ∃ r : ℝ, v d = r) :
    ∃ u : Fin 64 → ℝ, ∀ d, Ideal.div (v d) (max (Ideal.sqrt (∑ d, v d * v d)) eps12) = u d := by
  choose r hr using hv
  obtain ⟨e, he, hepos⟩ := eps12_pos
  have hS : (0 : ℝ) ≤ ∑ d, r d * r d := Finset.sum_nonneg fun d _ => mul_self_nonneg _
  have hsum : ∑ d, v d * v d = ((∑ d, r d * r d : ℝ) : EReal) := by
    rw [coe_sum]; exact Finset.sum_congr rfl fun d _ => by rw [hr d, EReal.coe_mul]
  have hN : max (Ideal.sqrt (∑ d, v d * v d)) eps12 = ((max (Real.sqrt (∑ d, r d * r d)) e : ℝ) : EReal) := by
    rw [hsum, Ideal.sqrt_coe, if_neg (not_lt.2 hS), he, coe_max]
  have hNne : max (Real.sqrt (∑ d, r d * r d)) e ≠ 0 := (lt_max_of_lt_right hepos).ne'
  refine ⟨fun d => r d * (1 / max (Real.sqrt (∑ d, r d * r d)) e), fun d => ?_⟩
  rw [hN, Ideal.div_coe hNne, hr d, EReal.coe_mul]

/-- The standardised, scaled and shifted column of a real column is real: the variance is a mean of squares, so the
    quantity under the reciprocal root is positive. -/
theorem fhat_real (col w b : Fin 64 → EReal) (hcol : ∀ d, ∃ r : ℝ, col d = r) (hw : ∀ d, ∃ r : ℝ, w d = r)
    (hb : ∀ d, ∃ r : ℝ, b d = r) : ∀ d, ∃ r : ℝ, fhat col w b d = r := by
  choose c hc using hcol
  choose wr hwr using hw
  choose br hbr using hb
  obtain ⟨e, he, hepos⟩ := eps5_pos
  have h64 : (64 : ℝ) ≠ 0 := by norm_num
  obtain ⟨μ, hmean⟩ : ∃ μ : ℝ, fmean col = μ := by
    refine ⟨(∑ d, c d) * (1 / 64), ?_⟩
    unfold fmean
    rw [c64_eq, Ideal.div_coe h64, EReal.coe_mul, coe_sum]
    simp only [hc]
  have hsub : ∀ d, col d - fmean col = ((c d - μ : ℝ) : EReal) := fun d => by rw [hc d, hmean, EReal.coe_sub]
  have hvar : fvar col = (((∑ d, (c d - μ) * (c d - μ)) * (1 / 64) : ℝ) : EReal) := by
    unfold fvar
    rw [c64_eq, Ideal.div_coe h64, EReal.coe_mul, coe_sum]
    simp only [hsub, EReal.coe_mul]
  have hv0 : (0 : ℝ) ≤ (∑ d, (c d - μ) * (c d - μ)) * (1 / 64) :=
    mul_nonneg (Finset.sum_nonneg fun d _ => mul_self_nonneg _) (by norm_num)
  have hvpos : (0 : ℝ) < (∑ d, (c d - μ) * (c d - μ)) * (1 / 64) + e := add_pos_of_nonneg_of_pos hv0 hepos
  have hrs : Ideal.rsqrt (fvar col + eps5)
      = (((Real.sqrt ((∑ d, (c d - μ) * (c d - μ)) * (1 / 64) + e))⁻¹ : ℝ) : EReal) := by
    rw [hvar, he, ← EReal.coe_add, Ideal.rsqrt_coe, if_neg (not_lt.2 hvpos.le), if_neg hvpos.ne']
  intro d
  refine ⟨(c d - μ) * (Real.sqrt ((∑ d, (c d - μ) * (c d - μ)) * (1 / 64) + e))⁻¹ * wr d + br d, ?_⟩
  unfold fhat
  rw [hsub d, hrs, hwr d, hbr d, EReal.coe_add, EReal.coe_mul, EReal.coe_mul]

/-- The reciprocal square of a positive real is real. -/
theorem inv2_real (s : Fin 64 → EReal) (hs : ∀ d, ∃ r : ℝ, s d = r ∧ 0 < r) : ∀ d, ∃ r : ℝ, inv2 s d = r := by
  intro d
  obtain ⟨r, hr, hpos⟩ := hs d
  refine ⟨1 * (1 / (r * r)), ?_⟩
  unfold inv2
  rw [hr, ← EReal.coe_mul, Ideal.div_coe (mul_pos hpos hpos).ne', cOne_eq, ← EReal.coe_mul]

/-- The logarithm of a positive real is real. -/
theorem log_real (s : Fin 64 → EReal) (hs : ∀ d, ∃ r : ℝ, s d = r ∧ 0 < r) :
    ∀ d, ∃ r : ℝ, Ideal.log (s d) = r := by
  intro d
  obtain ⟨r, hr, hpos⟩ := hs d
  exact ⟨Real.log r, by rw [hr, Ideal.log_coe, if_neg (not_le.2 hpos)]⟩

/-! ## One component: the two log-densities are real and differ by the constant -/

theorem logp_pair (mu s xx : Fin 64 → EReal) (hx : ∀ d, ∃ r : ℝ, xx d = r) (hmu : ∀ d, ∃ r : ℝ, mu d = r)
    (hs : ∀ d, ∃ r : ℝ, s d = r ∧ 0 < r) :
    ∃ a : ℝ, logpK mu s xx = a ∧ logpR mu s xx = ((a + delta : ℝ) : EReal) := by
  choose x hx using hx
  obtain ⟨m, hm⟩ := unit_real mu hmu
  have hm' : ∀ d, mun mu d = m d := hm
  choose i hi using inv2_real s hs
  choose l hl using log_real s hs
  unfold logpK logpR
  simp only [hx, hm', hi, hl, cMinusHalf_eq, cTwo_eq, c32_eq, log_cTwoPi]
  rw [cLogNorm_coe]
  simp only [← EReal.coe_mul, ← coe_sum, ← EReal.coe_add, ← EReal.coe_sub]
  refine ⟨_, rfl, ?_⟩
  rw [EReal.coe_eq_coe_iff]
  -- over the reals: the factor -1/2 leaves the sum of squares, and the cross terms commute
  have h1 : ∑ d, (-(1 / 2) * i d) * (x d * x d) = -(1 / 2) * ∑ d, (x d * x d) * i d := by
    rw [Finset.mul_sum]; exact Finset.sum_congr rfl fun d _ => by ring
  have h2 : ∑ d, (m d * i d) * x d = ∑ d, x d * (m d * i d) := Finset.sum_congr rfl fun d _ => by ring
  rw [h1, h2]; unfold delta; ring

/-! ## The largest of five -/

theorem sup_eq_max5 (L : Fin 5 → EReal) : (Finset.univ : Finset (Fin 5)).sup L = max5 L := by
  apply le_antisymm
  · refine Finset.sup_le fun p _ => ?_
    unfold max5
    fin_cases p <;> simp [le_max_iff]
  · unfold max5
    exact max_le (max_le (max_le (max_le (Finset.le_sup (f := L) (Finset.mem_univ _))
      (Finset.le_sup (f := L) (Finset.mem_univ _))) (Finset.le_sup (f := L) (Finset.mem_univ _)))
      (Finset.le_sup (f := L) (Finset.mem_univ _))) (Finset.le_sup (f := L) (Finset.mem_univ _))

/-- The largest of five reals, each shifted by one constant, is the largest shifted by it. -/
theorem max5_shift (L L' : Fin 5 → EReal) (a : Fin 5 → ℝ) (δ : ℝ) (h : ∀ p, L p = a p)
    (h' : ∀ p, L' p = ((a p + δ : ℝ) : EReal)) : ∃ M : ℝ, max5 L = M ∧ max5 L' = ((M + δ : ℝ) : EReal) := by
  refine ⟨max (max (max (max (a 0) (a 1)) (a 2)) (a 3)) (a 4), ?_, ?_⟩
  · unfold max5; simp only [h, coe_max]
  · unfold max5; simp only [h', ← max_add_add_right, coe_max]

/-! ## The final normalisation is unchanged by a shift of all nineteen scores -/

theorem kout_shift (m m' : Fin 19 → EReal) (r : Fin 19 → ℝ) (δ : ℝ) (w b : Fin 19 → EReal) (hm : ∀ k, m k = r k)
    (hm' : ∀ k, m' k = ((r k + δ : ℝ) : EReal)) (k : Fin 19) : kout m w b k = kout m' w b k := by
  have h19 : (19 : ℝ) ≠ 0 := by norm_num
  have hmean : kmean m = (((∑ k, r k) * (1 / 19) : ℝ) : EReal) := by
    unfold kmean
    rw [c19_eq, Ideal.div_coe h19, EReal.coe_mul, coe_sum]
    simp only [hm]
  have hmean' : kmean m' = (((∑ k, (r k + δ)) * (1 / 19) : ℝ) : EReal) := by
    unfold kmean
    rw [c19_eq, Ideal.div_coe h19, EReal.coe_mul, coe_sum]
    simp only [hm']
  -- the mean shifts by the same constant, so the centred scores are unchanged
  have hsub : ∀ j, m' j - kmean m' = m j - kmean m := by
    intro j
    rw [hm j, hm' j, hmean, hmean', ← EReal.coe_sub, ← EReal.coe_sub, EReal.coe_eq_coe_iff,
      Finset.sum_add_distrib, Finset.sum_const, Finset.card_univ, Fintype.card_fin, nsmul_eq_mul]
    push_cast; ring
  unfold kout kvar
  simp only [hsub]

/-! ## The two results agree -/

theorem outK_eq_outR (col fw fb : Fin 64 → EReal) (mu sd : Fin 19 → Fin 5 → Fin 64 → EReal) (mw mb : Fin 19 → EReal)
    (hcol : ∀ d, ∃ r : ℝ, col d = r) (hfw : ∀ d, ∃ r : ℝ, fw d = r) (hfb : ∀ d, ∃ r : ℝ, fb d = r)
    (hmu : ∀ k p d, ∃ r : ℝ, mu k p d = r) (hsd : ∀ k p d, ∃ r : ℝ, sd k p d = r ∧ 0 < r) (k : Fin 19) :
    outK col fw fb mu sd mw mb k = outR col fw fb mu sd mw mb k := by
  have hxn : ∀ d, ∃ r : ℝ, xn col fw fb d = r := by
    obtain ⟨u, hu⟩ := unit_real (fhat col fw fb) (fhat_real col fw fb hcol hfw hfb)
    exact fun d => ⟨u d, hu d⟩
  have hscore : ∀ k', ∃ M : ℝ, max5 (fun p => logpK (mu k' p) (sd k' p) (xn col fw fb)) = M ∧
      (Finset.univ : Finset (Fin 5)).sup (fun p => logpR (mu k' p) (sd k' p) (xn col fw fb))
        = ((M + delta : ℝ) : EReal) := by
    intro k'
    choose a ha ha' using fun p => logp_pair (mu k' p) (sd k' p) (xn col fw fb) hxn (hmu k' p) (hsd k' p)
    rw [sup_eq_max5]
    exact max5_shift _ _ a delta ha ha'
  choose M hM hM' using hscore
  unfold outK outR
  exact kout_shift _ _ M delta mw mb hM hM' k

end Cert.Gmm

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.PreReal.lean ====
/-
  From the precondition "every input is finite and every standard deviation is positive" to facts about the entries.
  The precondition is a conjunction of eight "for all entries" tests: for each of the seven float arrays, that the
  absolute value of every entry compares below +infinity, and for the array of standard deviations, that every entry
  compares above zero. Each "for all" is an and-reduction of an array of truth values down to one truth value; the
  conjunction of the eight is a chain of binary ands. When the whole is true, each conjunct is true, each reduction
  being true makes every element true, and an element being true says: the entry is a real number (neither infinity
  has an absolute value below +infinity), respectively the entry, already known to be a real number, is positive.
-/
import proofs.«109077_j2095944040758_2_alg».proof.Pre_finite_inputs
import proofs.«109077_j2095944040758_2_alg».proof.Proof.Gen.Pre_finite_inputs
import Idealize.ShloMosaic.Lib.ReduceAll
import Idealize.ShloMosaic.Lib.ValueIdx
import Idealize.ShloMosaic.PureOps.Ideal.Laws
import proofs.«109077_j2095944040758_2_alg».proof.Proof.LibRealEntry

noncomputable section

namespace Cert.Gmm.Pre

open Idealize.ShloMosaic Cert.Pre_finite_inputs

/-- The shape of a single truth value has exactly one index. -/
instance subsingleton_scalar_idx : Subsingleton S_.Idx := ⟨fun a b => funext fun d => d.elim0⟩

/-- A "for all entries" test that came out true: the and-reduction of an array of truth values down to a single
    truth value is true only if every element of the array is true. -/
theorem all_of_reduce {s : Shape} {axes : List (Fin s.rank)} (p : IVec s 1) (init : IVec S_ 1)
    (hr : s.ReducesTo axes S_) (hu : 0 < S_.numel)
    (e : Host.reduce IntOp.andi p init hr hu ValueIdx.ix0 = 1#1) (i : s.Idx) : p i = 1#1 :=
  Host.reduce_andi_all p init hr hu ValueIdx.ix0 e i

/-- An entry whose absolute value compares below the (broadcast) word of +infinity is a real number. -/
theorem real_of_cmp {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = r :=
  Cert.LibRealEntry.real_of_abs_lt_inf (a i) h

/-- An entry that is a real number and compares above the (broadcast) word of zero is positive. -/
theorem pos_of_cmp {s : Shape} (hb : S_.BroadcastsInDim s (![] : Fin 0 → Fin s.rank)) (a : FVec Ideal s .f32) (i : s.Idx)
    (r : ℝ) (hr : a i = r)
    (h : cmpf .ogt a (broadcastInDim s ![] hb (constant (F := Ideal) S_ .f32 0x00000000#32)) i = 1#1) : 0 < r := by
  have h' : Ideal.cmp .ogt (a i) (Ideal.ofBits .f32 0x00000000#32) = 1#1 := h
  rw [Ideal.ofBits_zero_f32, hr] at h'
  by_contra hn
  have hn' : ¬ ((0 : EReal) < (r : EReal)) := fun hc => hn (EReal.coe_pos.1 hc)
  simp [Ideal.cmp, hn'] at h'

/-- The precondition, read back: every entry of every input is a real number, and every standard deviation
    (the third array) is a positive real number. -/
theorem real_of_pre [Cert.Pre_finite_inputs.Facts]
    (a0 : FVec Ideal Cert.Pre_finite_inputs.S8x64x32768 .f32) (a1 a2 : FVec Ideal Cert.Pre_finite_inputs.S19x5x64 .f32)
    (a3 a4 : FVec Ideal Cert.Pre_finite_inputs.S64 .f32) (a5 a6 : FVec Ideal Cert.Pre_finite_inputs.S19 .f32)
    (h : Cert.Pre_finite_inputs.fn (F := Ideal) a0 a1 a2 a3 a4 a5 a6 = fun _ => 1#1) :
    (∀ i, ∃ r : ℝ, a0 i = r) ∧ (∀ i, ∃ r : ℝ, a1 i = r) ∧ (∀ i, ∃ r : ℝ, a2 i = r ∧ 0 < r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [Cert.Pre_finite_inputs.fn, Cert.Pre_finite_inputs.fn_part1, Cert.Pre_finite_inputs.fn_part2] at h0
  -- the chain of binary ands, from the outermost conjunct inwards
  obtain ⟨h33, h36⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  have r2 : ∀ i, ∃ r : ℝ, a2 i = r := fun i => real_of_cmp _ a2 i (all_of_reduce _ _ _ _ h12 i)
  refine ⟨fun i => real_of_cmp _ a0 i (all_of_reduce _ _ _ _ h3 i),
    fun i => real_of_cmp _ a1 i (all_of_reduce _ _ _ _ h7 i),
    fun i => ?_,
    fun i => real_of_cmp _ a3 i (all_of_reduce _ _ _ _ h17 i),
    fun i => real_of_cmp _ a4 i (all_of_reduce _ _ _ _ h22 i),
    fun i => real_of_cmp _ a5 i (all_of_reduce _ _ _ _ h27 i),
    fun i => real_of_cmp _ a6 i (all_of_reduce _ _ _ _ h32 i)⟩
  obtain ⟨r, hr⟩ := r2 i
  exact ⟨r, hr, pos_of_cmp _ a2 i r hr (all_of_reduce _ _ _ _ h36 i)⟩

end Cert.Gmm.Pre

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.KBody1.lean ====
/-
  The kernel body's first stage, read at an index: a tile of 8192 pixels, 64 features each, one pixel per column.

  Every column is brought to zero mean and unit variance over its 64 entries, scaled and shifted row by row, and then
  to unit Euclidean length; the stage returns the 128 × 8192 array whose first 64 rows hold the squares of the
  unit column's entries and whose last 64 rows hold the entries themselves. Entry (c, j) therefore depends on column
  j of the tile only: it is `xn d · xn d` for c = d < 64 and `xn d` for c = 64 + d, with `xn` the unit column of
  the specification.
-/
import proofs.«109077_j2095944040758_2_alg».proof.Proof.Gen.KernelIdeal.Skeleton
import proofs.«109077_j2095944040758_2_alg».proof.Proof.Spec
import proofs.«109077_j2095944040758_2_alg».proof.Proof.LibKeepdims
import proofs.«109077_j2095944040758_2_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

namespace Cert.Gmm.Body

open Cert.KernelIdeal Cert.KernelIdeal.Gen Idealize.ShloMosaic Idealize.ShloMosaic.ValueIdx Cert.Gmm Cert.LibColSum
open scoped BigOperators

/-! ## The stage's intermediate arrays, named -/

variable (v0 : Vec Ideal S1x64x8192 .f32) (v20 v24 : Vec Ideal S64x1 .f32)

/-- The tile as a 64 × 8192 matrix. -/
def tile : FVec Ideal S64x8192 .f32 := shapeCast S64x8192 v0 shapeCasts_S1x64x8192_S64x8192
/-- The column means, a row. -/
def meanRow : FVec Ideal S1x8192 .f32 :=
  divf (shapeCast S1x8192 (multiReduction .add [0] S8192 (tile v0) 0x00000000#32 reduces_S64x8192_S8192 (.inl rfl) rfl)
    shapeCasts_S8192_S1x8192) (broadcast S1x8192 (Scalar.ofBits .f32 0x42800000#32))
/-- The centred tile. -/
def ctr : FVec Ideal S64x8192 .f32 := subf (tile v0) (broadcastTo S64x8192 (meanRow v0) broadcasts_S1x8192_S64x8192)
/-- The column variances, a row. -/
def varRow : FVec Ideal S1x8192 .f32 :=
  divf (shapeCast S1x8192 (multiReduction .add [0] S8192 (mulf (ctr v0) (ctr v0)) 0x00000000#32 reduces_S64x8192_S8192
    (.inl rfl) rfl) shapeCasts_S8192_S1x8192) (broadcast S1x8192 (Scalar.ofBits .f32 0x42800000#32))
/-- The standardised tile, scaled and shifted row by row. -/
def hat : FVec Ideal S64x8192 .f32 :=
  addf (mulf (mulf (ctr v0) (broadcastTo S64x8192 (rsqrt (addf (varRow v0) (broadcast S1x8192 (Scalar.ofBits .f32 0x3727C5AC#32))))
      broadcasts_S1x8192_S64x8192))
    (broadcastTo S64x8192 (shapeCast S64x1 v20 shapeCasts_S64x1_S64x1) broadcasts_S64x1_S64x8192))
    (broadcastTo S64x8192 (shapeCast S64x1 v24 shapeCasts_S64x1_S64x1) broadcasts_S64x1_S64x8192)
/-- The columns' lengths, bounded below, a row. -/
def normRow : FVec Ideal S1x8192 .f32 :=
  maximumf (sqrt (shapeCast S1x8192 (multiReduction .add [0] S8192 (mulf (hat v0 v20 v24) (hat v0 v20 v24)) 0x00000000#32
    reduces_S64x8192_S8192 (.inl rfl) rfl) shapeCasts_S8192_S1x8192)) (broadcast S1x8192 (Scalar.ofBits .f32 0x2B8CBCCC#32))
/-- The unit columns. -/
def unit : FVec Ideal S64x8192 .f32 :=
  divf (hat v0 v20 v24) (broadcastTo S64x8192 (normRow v0 v20 v24) broadcasts_S1x8192_S64x8192)

/-- The stage is the squares of the unit columns stacked on the unit columns. -/
theorem pay2_eq : k0_pay2 (F := Ideal) v0 v20 v24
    = concatenate S128x8192 0 [⟨S64x8192, truncf .bf16 (mulf (unit v0 v20 v24) (unit v0 v20 v24)) bitsLt_bf16_f32⟩,
        ⟨S64x8192, truncf .bf16 (unit v0 v20 v24) bitsLt_bf16_f32⟩] concatenates_S64x8192_S64x8192_S128x8192_d0 := rfl

/-! ## Each named array at an index -/

/-- Column j of the tile, as a function of the feature. -/
abbrev colOf (j : Fin 8192) : Fin 64 → EReal := fun d => v0 (ix3 (0 : Fin 1) d j)
/-- The row scale and shift, as functions of the feature. -/
abbrev rowOf (v : Vec Ideal S64x1 .f32) : Fin 64 → EReal := fun d => v (ix2 d (0 : Fin 1))

theorem tile_apply (d : Fin 64) (j : Fin 8192) : tile v0 (ix2 d j) = v0 (ix3 (0 : Fin 1) d j) :=
  shapeCast_1ab_ab_apply v0 _ d j

theorem meanRow_apply (u : Fin 1) (j : Fin 8192) : meanRow v0 (ix2 u j) = fmean (colOf v0 j) := by
  unfold meanRow fmean
  rw [divf_apply, broadcast_apply]
  refine congrArg (Ideal.div · c64) ((colSumRow_apply (a := 64) (b := 8192) (tile v0) _ _ _ _ u j).trans ?_)
  exact Finset.sum_congr rfl fun d _ => tile_apply v0 d j

theorem ctr_apply (d : Fin 64) (j : Fin 8192) : ctr v0 (ix2 d j) = colOf v0 j d - fmean (colOf v0 j) := by
  unfold ctr
  rw [subf_apply, broadcastTo_1b_ab_apply, meanRow_apply, tile_apply]

theorem varRow_apply (u : Fin 1) (j : Fin 8192) : varRow v0 (ix2 u j) = fvar (colOf v0 j) := by
  unfold varRow fvar
  rw [divf_apply, broadcast_apply]
  refine congrArg (Ideal.div · c64) ((colSumRow_apply (a := 64) (b := 8192) (mulf (ctr v0) (ctr v0)) _ _ _ _ u j).trans ?_)
  refine Finset.sum_congr rfl fun d _ => ?_
  rw [mulf_apply, ctr_apply]

theorem hat_apply (d : Fin 64) (j : Fin 8192) :
    hat v0 v20 v24 (ix2 d j) = fhat (colOf v0 j) (rowOf v20) (rowOf v24) d := by
  unfold hat fhat
  rw [addf_apply, mulf_apply, mulf_apply, ctr_apply, broadcastTo_1b_ab_apply, broadcastTo_a1_ab_apply,
    broadcastTo_a1_ab_apply, shapeCast_self, shapeCast_self]
  show (_ - _) * Ideal.rsqrt (varRow v0 (ix2 0 j) + eps5) * _ + _ = _
  rw [varRow_apply]

theorem normRow_apply (u : Fin 1) (j : Fin 8192) :
    normRow v0 v20 v24 (ix2 u j) = fnorm (colOf v0 j) (rowOf v20) (rowOf v24) := by
  unfold normRow fnorm
  rw [maximumf_apply, broadcast_apply]
  refine congrArg (fun s => max (Ideal.sqrt s) eps12)
    ((colSumRow_apply (a := 64) (b := 8192) (mulf (hat v0 v20 v24) (hat v0 v20 v24)) _ _ _ _ u j).trans ?_)
  refine Finset.sum_congr rfl fun d _ => ?_
  rw [mulf_apply, hat_apply]

theorem unit_apply (d : Fin 64) (j : Fin 8192) :
    unit v0 v20 v24 (ix2 d j) = xn (colOf v0 j) (rowOf v20) (rowOf v24) d := by
  unfold unit xn
  rw [divf_apply, hat_apply, broadcastTo_1b_ab_apply, normRow_apply]

/-- The first 64 rows hold the squares of the unit column's entries. -/
theorem pay2_lo (c : Fin 128) (d : Fin 64) (j : Fin 8192) (hc : c.val = d.val) :
    k0_pay2 (F := Ideal) v0 v20 v24 (ix2 c j)
      = xn (colOf v0 j) (rowOf v20) (rowOf v24) d * xn (colOf v0 j) (rowOf v20) (rowOf v24) d := by
  rw [pay2_eq]
  refine (concatenate_pair_apply_left (t := S128x8192) (s₁ := S64x8192) (s₂ := S64x8192) (0 : Fin 2) _ _ _ (ix2 c j) rfl (ix2 d j)
    (fun b => match b with | ⟨0, _⟩ => hc.symm | ⟨1, _⟩ => rfl)).trans ?_
  rw [truncf_apply, mulf_apply, unit_apply]

/-- The last 64 rows hold the unit column's entries. -/
theorem pay2_hi (c : Fin 128) (d : Fin 64) (j : Fin 8192) (hc : c.val = 64 + d.val) :
    k0_pay2 (F := Ideal) v0 v20 v24 (ix2 c j) = xn (colOf v0 j) (rowOf v20) (rowOf v24) d := by
  rw [pay2_eq]
  refine (concatenate_pair_apply_right (t := S128x8192) (s₁ := S64x8192) (s₂ := S64x8192) (0 : Fin 2) _ _ _ (ix2 c j) rfl rfl (ix2 d j)
    (fun b hb => match b, hb with
      | ⟨0, _⟩, hb => absurd rfl hb
      | ⟨1, _⟩, _ => rfl)
    (by show d.val + 64 = c.val; omega)).trans ?_
  rw [truncf_apply, unit_apply]

end Cert.Gmm.Body

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KBody2.lean ====
/-
  The kernel body's second stage, read at an index: from the 128 × 8192 array of the first stage to the block it stores.

  For each of the five components the stage multiplies a 19 × 128 table of coefficients with the 128 × 8192 array
  and adds a column of 19 constants: entry (k, j) of component p is  Σ_c A_p(k, c) · X(c, j) + b_p(k).  The five
  19 × 8192 arrays are folded by the maximum from the left, and each column of the result — nineteen scores — is
  brought to zero mean and unit variance, scaled and shifted row by row.
-/
import proofs.«109077_j2095944040758_2_alg».proof.Proof.Gen.KernelIdeal.Skeleton
import proofs.«109077_j2095944040758_2_alg».proof.Proof.Spec
import proofs.«109077_j2095944040758_2_alg».proof.Proof.LibKeepdims
import proofs.«109077_j2095944040758_2_alg».proof.Proof.LibDot
import proofs.«109077_j2095944040758_2_alg».proof.Proof.KBody1
import Idealize.ShloMosaic.Lib.ValueIdx
import Idealize.ShloMosaic.Lib.ValueLayout
import Idealize.ShloMosaic.Lib.Pipeline.Value
import Idealize.ShloMosaic.PureOps.Ideal.Laws

noncomputable section

namespace Cert.Gmm.Body

open Cert.KernelIdeal Cert.KernelIdeal.Gen Idealize.ShloMosaic Idealize.ShloMosaic.ValueIdx Cert.Gmm Cert.LibColSum
open scoped BigOperators

/-! ## One component -/

/-- One component's 19 × 8192 array: the table times the first stage's array, plus the column of constants. -/
def comp (X : FVec Ideal S128x8192 .bf16) (a : Vec Ideal S1x19x128 .bf16) (b : Vec Ideal S1x19x1 .f32) :
    FVec Ideal S19x8192 .f32 :=
  addf (matmul dot_S19x128_S128x8192_S19x8192_1_0_0_1_n_n none
      (shapeCast S19x128 a shapeCasts_S1x19x128_S19x128 : FVec Ideal S19x128 .bf16) X (constant S19x8192 .f32 0x00000000#32))
    (broadcastTo S19x8192 (shapeCast S19x1 b shapeCasts_S1x19x1_S19x1 : FVec Ideal S19x1 .f32) broadcasts_S19x1_S19x8192)

theorem comp_apply (X : FVec Ideal S128x8192 .bf16) (a : Vec Ideal S1x19x128 .bf16) (b : Vec Ideal S1x19x1 .f32)
    (k : Fin 19) (j : Fin 8192) :
    comp X a b (ix2 k j) = (∑ c : Fin 128, a (ix3 (0 : Fin 1) k c) * X (ix2 c j)) + b (ix3 (0 : Fin 1) k (0 : Fin 1)) := by
  unfold comp
  rw [addf_apply, broadcastTo_a1_ab_apply, shapeCast_1ab_ab_apply]
  refine congrArg (· + b (ix3 (0 : Fin 1) k (0 : Fin 1))) ?_
  refine (Cert.LibDot.matmul_zero_apply (m := 19) (k := 128) (n := 8192) dot_S19x128_S128x8192_S19x8192_1_0_0_1_n_n_wf none
    (shapeCast S19x128 a shapeCasts_S1x19x128_S19x128 : FVec Ideal S19x128 .bf16) X k j).trans ?_
  exact Finset.sum_congr rfl fun c _ => by rw [shapeCast_1ab_ab_apply]

/-- The first four components folded by the maximum. -/
theorem pay3_eq (X : FVec Ideal S128x8192 .bf16) (v40 : Vec Ideal S1x19x128 .bf16) (v42 : Vec Ideal S1x19x1 .f32)
    (v47 : Vec Ideal S1x19x128 .bf16) (v49 : Vec Ideal S1x19x1 .f32) (v55 : Vec Ideal S1x19x128 .bf16)
    (v57 : Vec Ideal S1x19x1 .f32) (v63 : Vec Ideal S1x19x128 .bf16) (v65 : Vec Ideal S1x19x1 .f32) :
    k0_pay3 (F := Ideal) X v40 v42 v47 v49 v55 v57 v63 v65
      = maximumf (maximumf (maximumf (comp X v40 v42) (comp X v47 v49)) (comp X v55 v57)) (comp X v63 v65) := rfl

/-! ## The nineteen scores of each column, normalised -/

variable (s : FVec Ideal S19x8192 .f32) (v97 v101 : Vec Ideal S19x1 .f32)

/-- The column means of the scores, a row. -/
def kmeanRow : FVec Ideal S1x8192 .f32 :=
  divf (shapeCast S1x8192 (multiReduction .add [0] S8192 s 0x00000000#32 reduces_S19x8192_S8192 (.inl rfl) rfl)
    shapeCasts_S8192_S1x8192) (broadcast S1x8192 (Scalar.ofBits .f32 0x41980000#32))
/-- The centred scores. -/
def kctr : FVec Ideal S19x8192 .f32 := subf s (broadcastTo S19x8192 (kmeanRow s) broadcasts_S1x8192_S19x8192)
/-- The column variances of the scores, a row. -/
def kvarRow : FVec Ideal S1x8192 .f32 :=
  divf (shapeCast S1x8192 (multiReduction .add [0] S8192 (mulf (kctr s) (kctr s)) 0x00000000#32 reduces_S19x8192_S8192
    (.inl rfl) rfl) shapeCasts_S8192_S1x8192) (broadcast S1x8192 (Scalar.ofBits .f32 0x41980000#32))
/-- The standardised scores, scaled and shifted row by row. -/
def kfin : FVec Ideal S19x8192 .f32 :=
  addf (mulf (mulf (kctr s) (broadcastTo S19x8192 (rsqrt (addf (kvarRow s) (broadcast S1x8192 (Scalar.ofBits .f32 0x3727C5AC#32))))
      broadcasts_S1x8192_S19x8192))
    (broadcastTo S19x8192 (shapeCast S19x1 v97 shapeCasts_S19x1_S19x1 : FVec Ideal S19x1 .f32) broadcasts_S19x1_S19x8192))
    (broadcastTo S19x8192 (shapeCast S19x1 v101 shapeCasts_S19x1_S19x1 : FVec Ideal S19x1 .f32) broadcasts_S19x1_S19x8192)

/-- Column j of the scores, as a function of the class. -/
abbrev scoreCol (j : Fin 8192) : Fin 19 → EReal := fun k => s (ix2 k j)
/-- The class scale and shift, as functions of the class. -/
abbrev classOf (v : Vec Ideal S19x1 .f32) : Fin 19 → EReal := fun k => v (ix2 k (0 : Fin 1))

theorem kmeanRow_apply (u : Fin 1) (j : Fin 8192) : kmeanRow s (ix2 u j) = kmean (scoreCol s j) := by
  unfold kmeanRow kmean
  rw [divf_apply, broadcast_apply]
  exact congrArg (Ideal.div · c19) (colSumRow_apply (a := 19) (b := 8192) s _ _ _ _ u j)

theorem kctr_apply (k : Fin 19) (j : Fin 8192) : kctr s (ix2 k j) = scoreCol s j k - kmean (scoreCol s j) := by
  unfold kctr
  rw [subf_apply, broadcastTo_1b_ab_apply, kmeanRow_apply]

theorem kvarRow_apply (u : Fin 1) (j : Fin 8192) : kvarRow s (ix2 u j) = kvar (scoreCol s j) := by
  unfold kvarRow kvar
  rw [divf_apply, broadcast_apply]
  refine congrArg (Ideal.div · c19) ((colSumRow_apply (a := 19) (b := 8192) (mulf (kctr s) (kctr s)) _ _ _ _ u j).trans ?_)
  refine Finset.sum_congr rfl fun k _ => ?_
  rw [mulf_apply, kctr_apply]

theorem kfin_apply (k : Fin 19) (j : Fin 8192) :
    kfin s v97 v101 (ix2 k j) = kout (scoreCol s j) (classOf v97) (classOf v101) k := by
  unfold kfin kout
  rw [addf_apply, mulf_apply, mulf_apply, kctr_apply, broadcastTo_1b_ab_apply, broadcastTo_a1_ab_apply,
    broadcastTo_a1_ab_apply, shapeCast_self, shapeCast_self]
  show (_ - _) * Ideal.rsqrt (kvarRow s (ix2 0 j) + eps5) * _ + _ = _
  rw [kvarRow_apply]

/-- The stored block is the normalised maximum of the five components, with a leading unit axis. -/
theorem pay1_eq (X : FVec Ideal S128x8192 .bf16) (v70 : FVec Ideal S19x8192 .f32) (v71 : Vec Ideal S1x19x128 .bf16)
    (v73 : Vec Ideal S1x19x1 .f32) :
    k0_pay1 (F := Ideal) X v70 (k0_pay4 v71) v73 v97 v101
      = shapeCast S1x19x8192 (kfin (maximumf v70 (comp X v71 v73)) v97 v101) shapeCasts_S19x8192_S1x19x8192 := rfl

end Cert.Gmm.Body

end
-- ==== Proof.LibKeepRows.lean ====
/-
  A reduction over the last axis of a rank-3 array that keeps the axis, read at an index.

  For an array of shape [a, b, c]:
  * a [a, b] array cast to [a, b, 1] reads, at (i, j, u), the operand at (i, j)             (shapeCast_ab_ab1_apply);
  * a [a, b, 1] array broadcast to [a, b, c] reads, at (i, j, k), the operand at (i, j, 0)   (broadcastTo_ab1_abc_apply);
  * a [1, b, c] array broadcast to [a, b, c] reads, at (i, j, k), the operand at (0, j, k)   (broadcastTo_1bc_abc_apply);
  * over the exact reals-with-infinities, the sum over the last axis into [a, b] reads, at (i, j), the sum over k
    of the source at (i, j, k)                                                                (sumLast_apply).
  Together: a per-row statistic of an [a, b, c] array, kept as a column and spread back over the row, read at
  (i, j, k), is the statistic of row (i, j). For any extents and (the first three) any element type.
-/
import Idealize.ShloMosaic.Lib.Pipeline.Value
import Idealize.ShloMosaic.Lib.ValueIdx
import Idealize.ShloMosaic.PureOps.Ideal.Laws

noncomputable section

namespace Cert.Lib.KeepRows

open Idealize.ShloMosaic Idealize.ShloMosaic.ValueIdx
open scoped BigOperators

variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of row (i, j). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A [1, b, c] array broadcast to [a, b, c] reads, at (i, j, k), the operand's one slab at (j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Over the extended reals, the sum of an [a, b, c] array over its last axis reads, at (i, j), the sum over k of the
    entries (i, j, k): the index with the summed coordinate put back is (i, j, k). -/
theorem sumLast_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

end Cert.Lib.KeepRows

end
-- ==== Proof.KHost.lean ====
/-
  The tables the kernel's host operations prepare before the pallas call, read at an index.

  From the means and the standard deviations (both indexed class, component, feature) the host operations build,
  indexed component, class first: the unit-length mean rows `mun`, the reciprocal squared deviations `inv2`, a
  table of 128 coefficients per (component, class) — the 64 values -1/2 · inv2 followed by the 64 values mun · inv2 —
  and one constant per (component, class):  -1/2 · Σ_d mun_d² · inv2_d  -  (Σ_d log s_d + a literal).
-/
import proofs.«109077_j2095944040758_2_alg».proof.Proof.Gen.KernelIdeal.Frame
import proofs.«109077_j2095944040758_2_alg».proof.Proof.Spec
import proofs.«109077_j2095944040758_2_alg».proof.Proof.LibKeepRows
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.Gmm.HostTables

open Cert.KernelIdeal Cert.KernelIdeal.Gen Idealize.ShloMosaic Idealize.ShloMosaic.ValueIdx Cert.Gmm
open Idealize.ShloMosaic.TcCoe Idealize.SL.Sem
open scoped BigOperators

/-! ## A host sum over the last of three axes, from zero -/

theorem hostSumLast3 {A B C : Nat} (x : FVec Ideal ⟨3, ![A, B, C]⟩ .f32) {u : Shape} (init : u.Idx → EReal)
    (h' : (⟨3, ![A, B, C]⟩ : Shape).ReducesTo [2] ⟨2, ![A, B]⟩) (h : (⟨3, ![A, B, C]⟩ : Shape).Reduces [2] ⟨2, ![A, B]⟩)
    (hu : 0 < u.numel) (hinit : init (Shape.Idx.first hu) = 0) (i : Fin A) (j : Fin B) :
    Host.reduceAdd (φ := .f32) x init h' hu (ix2 i j) = ∑ k : Fin C, x (ix3 i j k) := by
  rw [hostReduceAdd_apply, Ideal.hostReduceAdd_single h' h, hinit, zero_add]
  show ∑ k : Fin C, x (h.lift (ix2 i j) k) = _
  refine Finset.sum_congr rfl fun k _ => congrArg x (funext fun ax => Fin.ext ?_)
  match ax with
  | ⟨0, _⟩ => rfl
  | ⟨1, _⟩ => rfl
  | ⟨2, _⟩ => rfl

theorem zero_init : (constant (F := Ideal) S_ .f32 0x00000000#32) (Shape.Idx.first h_S_) = 0 :=
  Ideal.ofBits_zero_f32

/-! ## The host operations' terms, named -/

variable (a1 a2 : FVec Ideal S19x5x64 .f32)

/-- The squared length of each mean row. -/
def hSumSq : FVec Ideal S19x5 .f32 :=
  Host.reduceAdd (mulf a1 a1) (constant S_ .f32 0x00000000#32) reducesTo_S19x5x64_S19x5_d2 h_S_
/-- The length of each mean row, bounded below. -/
def hNorm : FVec Ideal S19x5x1 .f32 :=
  maximumf (Host.sqrt (broadcastInDim S19x5x1 ![0, 1] bcast_S19x5_S19x5x1_0_1 (hSumSq a1)))
    (broadcastInDim S19x5x1 ![] bcast_S_S19x5x1 (constant S_ .f32 0x2B8CBCCC#32))
/-- The unit-length mean rows, indexed class, component. -/
def hMeansN : FVec Ideal S19x5x64 .f32 :=
  Host.divf a1 (broadcastInDim S19x5x64 ![0, 1, 2] bcast_S19x5x1_S19x5x64_0_1_2 (hNorm a1))
/-- The same, indexed component, class. -/
def hMu : FVec Ideal S5x19x64 .f32 := transpose S5x19x64 [1, 0, 2] (hMeansN a1) transposes_S19x5x64_S5x19x64_1_0_2
/-- The standard deviations, indexed component, class. -/
def hSd : FVec Ideal S5x19x64 .f32 := transpose S5x19x64 [1, 0, 2] a2 transposes_S19x5x64_S5x19x64_1_0_2
/-- The reciprocal squared deviations. -/
def hInv2 : FVec Ideal S5x19x64 .f32 :=
  Host.divf (broadcastInDim S5x19x64 ![] bcast_S_S5x19x64 (constant S_ .f32 0x3F800000#32)) (mulf (hSd a2) (hSd a2))
/-- Σ_d mun_d² · inv2_d per (component, class). -/
def hConst : FVec Ideal S5x19 .f32 :=
  Host.reduceAdd (mulf (mulf (hMu a1) (hMu a1)) (hInv2 a2)) (constant S_ .f32 0x00000000#32) reducesTo_S5x19x64_S5x19_d2 h_S_
/-- Σ_d log s_d plus the literal, per (component, class). -/
def hLogNorm : FVec Ideal S5x19 .f32 :=
  addf (Host.reduceAdd (Host.log (hSd a2)) (constant S_ .f32 0x00000000#32) reducesTo_S5x19x64_S5x19_d2 h_S_)
    (broadcastInDim S5x19 ![] bcast_S_S5x19 (constant S_ .f32 0x426B3F8E#32))
/-- The constant per (component, class), as a column. -/
def hBias : FVec Ideal S5x19x1 .f32 :=
  shapeCast S5x19x1 (subf (mulf (broadcastInDim S5x19 ![] bcast_S_S5x19 (constant S_ .f32 0xBF000000#32)) (hConst a1 a2))
    (hLogNorm a2)) shapeCasts_S5x19_S5x19x1
/-- The 128 coefficients per (component, class). -/
def hTable : FVec Ideal S5x19x128 .bf16 :=
  truncf .bf16 (concatenate S5x19x128 2
    [⟨S5x19x64, mulf (broadcastInDim S5x19x64 ![] bcast_S_S5x19x64 (constant S_ .f32 0xBF000000#32)) (hInv2 a2)⟩,
      ⟨S5x19x64, mulf (hMu a1) (hInv2 a2)⟩] concatenates_S5x19x64_S5x19x64_S5x19x128_d2) bitsLt_bf16_f32

/-! ## Each at an index -/

/-- The mean row of class k, component p. -/
abbrev muRow (k : Fin 19) (p : Fin 5) : Fin 64 → EReal := fun d => a1 (ix3 k p d)
/-- The deviation row of class k, component p. -/
abbrev sdRow (k : Fin 19) (p : Fin 5) : Fin 64 → EReal := fun d => a2 (ix3 k p d)

theorem hSumSq_apply (k : Fin 19) (p : Fin 5) : hSumSq a1 (ix2 k p) = ∑ d, muRow a1 k p d * muRow a1 k p d := by
  unfold hSumSq
  exact hostSumLast3 (A := 19) (B := 5) (C := 64) (mulf a1 a1) _ _ (by decide) h_S_ zero_init k p

theorem hNorm_apply (k : Fin 19) (p : Fin 5) (u : Fin 1) : hNorm a1 (ix3 k p u) = mnorm (muRow a1 k p) := by
  unfold hNorm mnorm
  rw [maximumf_apply, broadcastInDim_scalar_apply]
  refine congrArg (fun s => max (Ideal.sqrt s) eps12) ?_
  refine (broadcastInDim_apply _ bcast_S19x5_S19x5x1_0_1 (hSumSq a1) (ix3 k p u) (ix2 k p)
    (fun a => match a with | ⟨0, _⟩ => rfl | ⟨1, _⟩ => rfl)).trans ?_
  exact hSumSq_apply a1 k p

theorem hMeansN_apply (k : Fin 19) (p : Fin 5) (d : Fin 64) : hMeansN a1 (ix3 k p d) = mun (muRow a1 k p) d := by
  unfold hMeansN mun
  rw [hostDivf_apply]
  refine congrArg (Ideal.div (a1 (ix3 k p d))) ?_
  refine (broadcastInDim_apply _ bcast_S19x5x1_S19x5x64_0_1_2 (hNorm a1) (ix3 k p d) (ix3 k p (0 : Fin 1))
    (fun a => match a with | ⟨0, _⟩ => rfl | ⟨1, _⟩ => rfl | ⟨2, _⟩ => rfl)).trans ?_
  exact hNorm_apply a1 k p 0

theorem hMu_apply (p : Fin 5) (k : Fin 19) (d : Fin 64) : hMu a1 (ix3 p k d) = mun (muRow a1 k p) d := by
  unfold hMu
  refine (transpose_apply _ (hMeansN a1) transposes_S19x5x64_S5x19x64_1_0_2 (ix3 p k d) (ix3 k p d)
    (fun b => match b with | ⟨0, _⟩ => rfl | ⟨1, _⟩ => rfl | ⟨2, _⟩ => rfl)).trans ?_
  exact hMeansN_apply a1 k p d

theorem hSd_apply (p : Fin 5) (k : Fin 19) (d : Fin 64) : hSd a2 (ix3 p k d) = sdRow a2 k p d := by
  unfold hSd
  exact transpose_apply _ a2 transposes_S19x5x64_S5x19x64_1_0_2 (ix3 p k d) (ix3 k p d)
    (fun b => match b with | ⟨0, _⟩ => rfl | ⟨1, _⟩ => rfl | ⟨2, _⟩ => rfl)

theorem hInv2_apply (p : Fin 5) (k : Fin 19) (d : Fin 64) : hInv2 a2 (ix3 p k d) = inv2 (sdRow a2 k p) d := by
  unfold hInv2 inv2
  rw [hostDivf_apply, broadcastInDim_scalar_apply, mulf_apply, hSd_apply]
  rfl

theorem hConst_apply (p : Fin 5) (k : Fin 19) :
    hConst a1 a2 (ix2 p k) = ∑ d, (mun (muRow a1 k p) d * mun (muRow a1 k p) d) * inv2 (sdRow a2 k p) d := by
  unfold hConst
  refine (hostSumLast3 (A := 5) (B := 19) (C := 64) _ _ _ (by decide) h_S_ zero_init p k).trans ?_
  refine Finset.sum_congr rfl fun d _ => ?_
  rw [mulf_apply, mulf_apply, hMu_apply, hInv2_apply]

theorem hLogNorm_apply (p : Fin 5) (k : Fin 19) :
    hLogNorm a2 (ix2 p k) = (∑ d, Ideal.log (sdRow a2 k p d)) + cLogNorm := by
  unfold hLogNorm
  rw [addf_apply, broadcastInDim_scalar_apply]
  refine congrArg (· + cLogNorm) ?_
  refine (hostSumLast3 (A := 5) (B := 19) (C := 64) _ _ _ (by decide) h_S_ zero_init p k).trans ?_
  refine Finset.sum_congr rfl fun d _ => ?_
  show Ideal.log (hSd a2 (ix3 p k d)) = _
  rw [hSd_apply]

/-- The constant of component p, class k. -/
theorem hBias_apply (p : Fin 5) (k : Fin 19) (u : Fin 1) :
    hBias a1 a2 (ix3 p k u)
      = cMinusHalf * (∑ d, (mun (muRow a1 k p) d * mun (muRow a1 k p) d) * inv2 (sdRow a2 k p) d)
        - ((∑ d, Ideal.log (sdRow a2 k p d)) + cLogNorm) := by
  unfold hBias
  rw [Cert.Lib.KeepRows.shapeCast_ab_ab1_apply, subf_apply, mulf_apply, broadcastInDim_scalar_apply, hConst_apply,
    hLogNorm_apply]
  rfl

/-- The first 64 coefficients: -1/2 · inv2. -/
theorem hTable_lo (p : Fin 5) (k : Fin 19) (c : Fin 128) (d : Fin 64) (hc : c.val = d.val) :
    hTable a1 a2 (ix3 p k c) = cMinusHalf * inv2 (sdRow a2 k p) d := by
  unfold hTable
  rw [truncf_apply]
  refine (concatenate_pair_apply_left (t := S5x19x128) (s₁ := S5x19x64) (s₂ := S5x19x64) (2 : Fin 3) _ _ _ (ix3 p k c) rfl
    (ix3 p k d) (fun b => match b with | ⟨0, _⟩ => rfl | ⟨1, _⟩ => rfl | ⟨2, _⟩ => hc.symm)).trans ?_
  rw [mulf_apply, broadcastInDim_scalar_apply, hInv2_apply]
  rfl

/-- The last 64 coefficients: mun · inv2. -/
theorem hTable_hi (p : Fin 5) (k : Fin 19) (c : Fin 128) (d : Fin 64) (hc : c.val = 64 + d.val) :
    hTable a1 a2 (ix3 p k c) = mun (muRow a1 k p) d * inv2 (sdRow a2 k p) d := by
  unfold hTable
  rw [truncf_apply]
  refine (concatenate_pair_apply_right (t := S5x19x128) (s₁ := S5x19x64) (s₂ := S5x19x64) (2 : Fin 3) _ _ _ (ix3 p k c) rfl rfl
    (ix3 p k d) (fun b hb => match b, hb with
      | ⟨0, _⟩, _ => rfl
      | ⟨1, _⟩, _ => rfl
      | ⟨2, _⟩, hb => absurd rfl hb)
    (by show d.val + 64 = c.val; omega)).trans ?_
  rw [mulf_apply, hMu_apply, hInv2_apply]

/-! ## What the region finds in the windows' arrays -/

variable (m : (ℓ : Loc nD τ sig) → Buf (Elt Ideal) ℓ)

theorem V_table (c : Dev nD) :
    (V m c main_v28 : S5x19x128.Idx → EReal)
      = hTable (m ((c : Thread nD τ).loc main_arg1)) (m ((c : Thread nD τ).loc main_arg2)) := by
  unfold V
  after_results_simp
  rfl

theorem V_bias (c : Dev nD) :
    (V m c main_v24 : S5x19x1.Idx → EReal)
      = hBias (m ((c : Thread nD τ).loc main_arg1)) (m ((c : Thread nD τ).loc main_arg2)) := by
  unfold V
  after_results_simp
  rfl

theorem V_featW (c : Dev nD) :
    (V m c main_v29 : S64x1.Idx → EReal) = shapeCast S64x1 (m ((c : Thread nD τ).loc main_arg3)) shapeCasts_S64_S64x1 := by
  unfold V
  after_results_simp
  rfl

theorem V_featB (c : Dev nD) :
    (V m c main_v30 : S64x1.Idx → EReal) = shapeCast S64x1 (m ((c : Thread nD τ).loc main_arg4)) shapeCasts_S64_S64x1 := by
  unfold V
  after_results_simp
  rfl

theorem V_maskW (c : Dev nD) :
    (V m c main_v31 : S19x1.Idx → EReal) = shapeCast S19x1 (m ((c : Thread nD τ).loc main_arg5)) shapeCasts_S19_S19x1 := by
  unfold V
  after_results_simp
  rfl

theorem V_maskB (c : Dev nD) :
    (V m c main_v32 : S19x1.Idx → EReal) = shapeCast S19x1 (m ((c : Thread nD τ).loc main_arg6)) shapeCasts_S19_S19x1 := by
  unfold V
  after_results_simp
  rfl

end Cert.Gmm.HostTables

end
-- ==== Proof.KOut.lean ====
/-
  What one grid point leaves in the output window's buffer, read at an index, as the specification's kernel-side
  function of the point's blocks: the pixel tile's column j, the coefficient table and the constants (whole arrays,
  the same at every point), the feature and class scales and shifts.

  The table's row of 128 coefficients for (component p, class k) meets the first stage's 128 entries of column j:
  the sum over 128 splits into the 64 products (-1/2 · inv2_d) · x_d² and the 64 products (mun_d · inv2_d) · x_d.
-/
import proofs.«109077_j2095944040758_2_alg».proof.Proof.Gen.KernelIdeal.Frame
import proofs.«109077_j2095944040758_2_alg».proof.Proof.Spec
import proofs.«109077_j2095944040758_2_alg».proof.Proof.KBody1
import proofs.«109077_j2095944040758_2_alg».proof.Proof.KBody2
import proofs.«109077_j2095944040758_2_alg».proof.Proof.KHost
import proofs.«109077_j2095944040758_2_alg».proof.Proof.LibKeepdims
import Idealize.ShloMosaic.Lib.ValueIdx
import Idealize.ShloMosaic.Lib.ValueLayout
import Idealize.ShloMosaic.Lib.Pipeline.Value

noncomputable section

namespace Cert.Gmm.Body

open Cert.KernelIdeal Cert.KernelIdeal.Gen Idealize.ShloMosaic Idealize.ShloMosaic.ValueIdx Cert.Gmm Cert.Gmm.HostTables
open scoped BigOperators

/-! ## Loads through the body's rectangles -/

/-- A load of the slab at offset p of a [5, 19, n] array reads, at (0, k, c), the array at (p, k, c). -/
theorem ld_slab {n : Nat} {e : EltTy} (x : Vec Ideal ⟨3, ![5, 19, n]⟩ e) (off : Fin 3 → Nat)
    (inb : ∀ a, off a + (⟨3, ![1, 19, n]⟩ : Shape).size a ≤ (⟨3, ![5, 19, n]⟩ : Shape).size a)
    (p : Fin 5) (h0 : off 0 = p.val) (h1 : off 1 = 0) (h2 : off 2 = 0) (u : Fin 1) (k : Fin 19) (c : Fin n) :
    View.ld x (Rect.unit (s := ⟨3, ![5, 19, n]⟩) off (⟨3, ![1, 19, n]⟩ : Shape).size inb) (ix3 u k c) = x (ix3 p k c) := by
  show x ((Rect.unit (s := ⟨3, ![5, 19, n]⟩) off (⟨3, ![1, 19, n]⟩ : Shape).size inb).emb (ix3 u k c)) = _
  refine congrArg x (funext fun a => Fin.ext ?_)
  rw [Rect.emb_apply]
  have hu : u.val = 0 := by omega
  match a with
  | ⟨0, _⟩ => show off 0 + 1 * u.val = p.val; omega
  | ⟨1, _⟩ => show off 1 + 1 * k.val = k.val; omega
  | ⟨2, _⟩ => show off 2 + 1 * c.val = c.val; omega

/-! ## The sum over the 128 coefficients, split -/

/-- A sum over 128 terms is the sum of its first 64 and its last 64. -/
theorem sum128 (f : Fin 128 → EReal) :
    ∑ c : Fin 128, f c = (∑ d : Fin 64, f ⟨d.val, by omega⟩) + ∑ d : Fin 64, f ⟨64 + d.val, by omega⟩ :=
  Fin.sum_univ_add (a := 64) (b := 64) f

/-! ## The block a point stores -/

section
variable (x0 : Vec Ideal S1x64x8192 .f32) (a1 a2 : FVec Ideal S19x5x64 .f32) (a3 a4 : FVec Ideal S64 .f32)
  (a5 a6 : FVec Ideal S19 .f32)

/-- One component at (k, j), over the host's tables: the kernel-side arrangement of the log-density. -/
theorem comp_tables (p : Fin 5) (off : Fin 3 → Nat) (off' : Fin 3 → Nat) (inb) (inb')
    (h0 : off 0 = p.val) (h1 : off 1 = 0) (h2 : off 2 = 0) (h0' : off' 0 = p.val) (h1' : off' 1 = 0) (h2' : off' 2 = 0)
    (v20 v24 : Vec Ideal S64x1 .f32) (k : Fin 19) (j : Fin 8192) :
    comp (k0_pay2 (F := Ideal) x0 v20 v24)
        (View.ld (Val := Elt Ideal) (e' := .bf16) (hTable a1 a2) (Rect.unit (s := S5x19x128) off S1x19x128.size inb))
        (View.ld (Val := Elt Ideal) (e' := .f32) (hBias a1 a2) (Rect.unit (s := S5x19x1) off' S1x19x1.size inb')) (ix2 k j)
      = logpK (muRow a1 k p) (sdRow a2 k p) (xn (colOf x0 j) (rowOf v20) (rowOf v24)) := by
  rw [comp_apply, sum128]
  unfold logpK
  refine congrArg₂ (· + ·) (congrArg₂ (· + ·) ?_ ?_) ?_
  · refine Finset.sum_congr rfl fun d _ => ?_
    rw [ld_slab (n := 128) (e := .bf16) (hTable a1 a2) off inb p h0 h1 h2 0 k _, hTable_lo a1 a2 p k _ d rfl,
      pay2_lo x0 v20 v24 _ d j rfl]
  · refine Finset.sum_congr rfl fun d _ => ?_
    rw [ld_slab (n := 128) (e := .bf16) (hTable a1 a2) off inb p h0 h1 h2 0 k _, hTable_hi a1 a2 p k _ d rfl,
      pay2_hi x0 v20 v24 _ d j rfl]
  · rw [ld_slab (n := 1) (e := .f32) (hBias a1 a2) off' inb' p h0' h1' h2' 0 k 0, hBias_apply]

/-- The block point t stores, at (u, k, j): the specification's kernel-side result for the tile's column j. -/
theorem out_tables (u : Fin 1) (k : Fin 19) (j : Fin 8192) :
    out0_7 (F := Ideal) x0 (hTable a1 a2) (hBias a1 a2) (shapeCast S64x1 a3 shapeCasts_S64_S64x1)
        (shapeCast S64x1 a4 shapeCasts_S64_S64x1) (shapeCast S19x1 a5 shapeCasts_S19_S19x1)
        (shapeCast S19x1 a6 shapeCasts_S19_S19x1) (ix3 u k j)
      = outK (colOf x0 j) (fun d => a3 (ix1 d)) (fun d => a4 (ix1 d)) (fun k' p d => a1 (ix3 k' p d))
          (fun k' p d => a2 (ix3 k' p d)) (fun k' => a5 (ix1 k')) (fun k' => a6 (ix1 k')) k := by
  have hz3 : (![0, 0, 0] : Fin 3 → Nat) = fun _ => 0 := by funext a; fin_cases a <;> rfl
  have hz2 : (![0, 0] : Fin 2 → Nat) = fun _ => 0 := by funext a; fin_cases a <;> rfl
  unfold out0_7
  rw [View.canon_unit_zero hz3]
  simp only [View.ld_unit_zero (S := S1x64x8192) hz3, View.ld_unit_zero (S := S64x1) hz2, View.ld_unit_zero (S := S19x1) hz2]
  rw [pay1_eq, pay3_eq, shapeCast_ab_1ab_apply, kfin_apply]
  unfold outK
  have hw : rowOf (shapeCast S64x1 a3 shapeCasts_S64_S64x1) = fun d => a3 (ix1 d) :=
    funext fun d => shapeCast_a_a1_apply a3 _ d 0
  have hb : rowOf (shapeCast S64x1 a4 shapeCasts_S64_S64x1) = fun d => a4 (ix1 d) :=
    funext fun d => shapeCast_a_a1_apply a4 _ d 0
  have hmw : classOf (shapeCast S19x1 a5 shapeCasts_S19_S19x1) = fun k' => a5 (ix1 k') :=
    funext fun k' => shapeCast_a_a1_apply a5 _ k' 0
  have hmb : classOf (shapeCast S19x1 a6 shapeCasts_S19_S19x1) = fun k' => a6 (ix1 k') :=
    funext fun k' => shapeCast_a_a1_apply a6 _ k' 0
  rw [hmw, hmb]
  refine congrArg (fun s => kout s _ _ k) (funext fun k' => ?_)
  show max (max (max (max _ _) _) _) _ = max5 _
  unfold max5
  simp only [maximumf_apply]
  rw [comp_tables x0 a1 a2 0 _ _ _ _ rfl rfl rfl rfl rfl rfl, comp_tables x0 a1 a2 1 _ _ _ _ rfl rfl rfl rfl rfl rfl,
    comp_tables x0 a1 a2 2 _ _ _ _ rfl rfl rfl rfl rfl rfl, comp_tables x0 a1 a2 3 _ _ _ _ rfl rfl rfl rfl rfl rfl,
    comp_tables x0 a1 a2 4 _ _ _ _ rfl rfl rfl rfl rfl rfl, hw, hb]

end

end Cert.Gmm.Body

end
-- ==== Proof.KFinal.lean ====
/-
  From the blocks each grid point stores to the whole result array.

  The grid is 8 × 4. Point (b, n) stages batch row b, all 64 features, columns 8192·n … 8192·n + 8191 of the input,
  together with the whole of the six small tables, and stores batch row b, all 19 classes, the same columns of the
  result. The body's result at a column depends on that column of the staged tile only, so what a point stores is the
  restriction to its block of ONE function of the arguments, the specification's kernel-side result column by column;
  and the 32 blocks tile the result array, so the array ends holding that function.
-/
import proofs.«109077_j2095944040758_2_alg».proof.Proof.KOut
import proofs.«109077_j2095944040758_2_alg».proof.Proof.Gen.KernelIdeal.Value

noncomputable section

namespace Cert.Gmm.Final

open Cert.KernelIdeal Cert.KernelIdeal.Gen Idealize.ShloMosaic Idealize.ShloMosaic.TcCoe Idealize.SL.Sem
open Idealize.ShloMosaic.ValueIdx Cert.Gmm Cert.Gmm.HostTables Cert.Gmm.Body
open Idealize.ShloMosaic.Pipeline (Dat)

variable (m : (ℓ : Loc nD τ sig) → Buf (Elt Ideal) ℓ) (ρ : Dev nD → PrngReg)

/-- The result array as one function of the arguments: at (b, k, n), the kernel-side score normalisation of column
    (b, ·, n) of the input, class k. -/
def G (c : Dev nD) : Buf (Elt Ideal) ((c : Thread nD τ).loc main_v33) := fun (i : S8x19x32768.Idx) =>
  outK (fun d => (m ((c : Thread nD τ).loc main_arg0) : S8x64x32768.Idx → EReal) (ix3 (i 0 : Fin 8) d (i 2 : Fin 32768)))
    (fun d => (m ((c : Thread nD τ).loc main_arg3) : S64.Idx → EReal) (ix1 d))
    (fun d => (m ((c : Thread nD τ).loc main_arg4) : S64.Idx → EReal) (ix1 d))
    (fun k' p d => (m ((c : Thread nD τ).loc main_arg1) : S19x5x64.Idx → EReal) (ix3 k' p d))
    (fun k' p d => (m ((c : Thread nD τ).loc main_arg2) : S19x5x64.Idx → EReal) (ix3 k' p d))
    (fun k' => (m ((c : Thread nD τ).loc main_arg5) : S19.Idx → EReal) (ix1 k'))
    (fun k' => (m ((c : Thread nD τ).loc main_arg6) : S19.Idx → EReal) (ix1 k'))
    (i 1 : Fin 19)

/-! ## The index maps, decided over the 32 points -/

/-- The input tile moves with the result's block on the batch and column axes; neither moves on the middle axis. -/
theorem tile_index_facts : ∀ t : Fin cfg0.N,
    win0_0.index t (0 : Fin 3) = win0_7.index t (0 : Fin 3) ∧ win0_0.index t (1 : Fin 3) = 0
    ∧ win0_0.index t (2 : Fin 3) = win0_7.index t (2 : Fin 3) ∧ win0_7.index t (1 : Fin 3) = 0
    ∧ win0_7.index t (0 : Fin 3) ≤ 7 ∧ win0_7.index t (2 : Fin 3) ≤ 3 :=
  (by decide +kernel : ∀ t : Fin grid0.N, _)

/-- The six tables are staged whole: their block index is zero on every axis at every point. -/
theorem table_index_facts : ∀ t : Fin cfg0.N,
    win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of the result array is some point's. -/
theorem index_onto : ∀ (q0 : Fin 8) (q2 : Fin 4), ∃ t : Fin cfg0.N, win0_7.index t = ![q0.val, 0, q2.val] :=
  (by decide +kernel : ∀ (q0 : Fin 8) (q2 : Fin 4), ∃ t : Fin grid0.N, win0_7.index t = ![q0.val, 0, q2.val])

/-! ## The staged blocks -/

theorem table_block (c : Dev nD) (t : Fin cfg0.N) :
    (iblk m c 1 t : Vec Ideal S5x19x128 .bf16) = (V m c main_v28 : S5x19x128.Idx → EReal) := by
  obtain ⟨e0, e1, e2, -⟩ := table_index_facts t
  funext y
  unfold iblk
  rw [View.read_apply]
  show V m c main_v28 _ = V m c main_v28 y
  congr 1
  funext a; apply Fin.ext
  match a with
  | ⟨0, _⟩ => show win0_1.index t (0 : Fin 3) * 5 + 1 * (y 0).val = (y 0).val; omega
  | ⟨1, _⟩ => show win0_1.index t (1 : Fin 3) * 19 + 1 * (y 1).val = (y 1).val; omega
  | ⟨2, _⟩ => show win0_1.index t (2 : Fin 3) * 128 + 1 * (y 2).val = (y 2).val; omega

theorem bias_block (c : Dev nD) (t : Fin cfg0.N) :
    (iblk m c 2 t : Vec Ideal S5x19x1 .f32) = (V m c main_v24 : S5x19x1.Idx → EReal) := by
  obtain ⟨-, -, -, e0, e1, e2, -⟩ := table_index_facts t
  funext y
  unfold iblk
  rw [View.read_apply]
  show V m c main_v24 _ = V m c main_v24 y
  congr 1
  funext a; apply Fin.ext
  match a with
  | ⟨0, _⟩ => show win0_2.index t (0 : Fin 3) * 5 + 1 * (y 0).val = (y 0).val; omega
  | ⟨1, _⟩ => show win0_2.index t (1 : Fin 3) * 19 + 1 * (y 1).val = (y 1).val; omega
  | ⟨2, _⟩ => show win0_2.index t (2 : Fin 3) * 1 + 1 * (y 2).val = (y 2).val; omega

theorem featW_block (c : Dev nD) (t : Fin cfg0.N) :
    (iblk m c 3 t : Vec Ideal S64x1 .f32) = (V m c main_v29 : S64x1.Idx → EReal) := by
  obtain ⟨-, -, -, -, -, -, e0, e1, -⟩ := table_index_facts t
  funext y
  unfold iblk
  rw [View.read_apply]
  show V m c main_v29 _ = V m c main_v29 y
  congr 1
  funext a; apply Fin.ext
  match a with
  | ⟨0, _⟩ => show win0_3.index t (0 : Fin 2) * 64 + 1 * (y 0).val = (y 0).val; omega
  | ⟨1, _⟩ => show win0_3.index t (1 : Fin 2) * 1 + 1 * (y 1).val = (y 1).val; omega

theorem featB_block (c : Dev nD) (t : Fin cfg0.N) :
    (iblk m c 4 t : Vec Ideal S64x1 .f32) = (V m c main_v30 : S64x1.Idx → EReal) := by
  obtain ⟨-, -, -, -, -, -, -, -, e0, e1, -⟩ := table_index_facts t
  funext y
  unfold iblk
  rw [View.read_apply]
  show V m c main_v30 _ = V m c main_v30 y
  congr 1
  funext a; apply Fin.ext
  match a with
  | ⟨0, _⟩ => show win0_4.index t (0 : Fin 2) * 64 + 1 * (y 0).val = (y 0).val; omega
  | ⟨1, _⟩ => show win0_4.index t (1 : Fin 2) * 1 + 1 * (y 1).val = (y 1).val; omega

theorem maskW_block (c : Dev nD) (t : Fin cfg0.N) :
    (iblk m c 5 t : Vec Ideal S19x1 .f32) = (V m c main_v31 : S19x1.Idx → EReal) := by
  obtain ⟨-, -, -, -, -, -, -, -, -, -, e0, e1, -⟩ := table_index_facts t
  funext y
  unfold iblk
  rw [View.read_apply]
  show V m c main_v31 _ = V m c main_v31 y
  congr 1
  funext a; apply Fin.ext
  match a with
  | ⟨0, _⟩ => show win0_5.index t (0 : Fin 2) * 19 + 1 * (y 0).val = (y 0).val; omega
  | ⟨1, _⟩ => show win0_5.index t (1 : Fin 2) * 1 + 1 * (y 1).val = (y 1).val; omega

theorem maskB_block (c : Dev nD) (t : Fin cfg0.N) :
    (iblk m c 6 t : Vec Ideal S19x1 .f32) = (V m c main_v32 : S19x1.Idx → EReal) := by
  obtain ⟨-, -, -, -, -, -, -, -, -, -, -, -, e0, e1⟩ := table_index_facts t
  funext y
  unfold iblk
  rw [View.read_apply]
  show V m c main_v32 _ = V m c main_v32 y
  congr 1
  funext a; apply Fin.ext
  match a with
  | ⟨0, _⟩ => show win0_6.index t (0 : Fin 2) * 19 + 1 * (y 0).val = (y 0).val; omega
  | ⟨1, _⟩ => show win0_6.index t (1 : Fin 2) * 1 + 1 * (y 1).val = (y 1).val; omega

/-- An element of the staged tile is the input array's element at the block index times the block size plus the
    coordinate inside the block, axis by axis. -/
theorem tile_apply (c : Dev nD) (t : Fin cfg0.N) (x : S1x64x8192.Idx) (i : S8x64x32768.Idx)
    (h0 : (i 0).val = win0_0.index t (0 : Fin 3) * 1 + (x 0).val)
    (h1 : (i 1).val = win0_0.index t (1 : Fin 3) * 64 + (x 1).val)
    (h2 : (i 2).val = win0_0.index t (2 : Fin 3) * 8192 + (x 2).val) :
    (iblk m c 0 t : Vec Ideal S1x64x8192 .f32) x
      = (m ((c : Thread nD τ).loc main_arg0) : S8x64x32768.Idx → EReal) i := by
  unfold iblk
  rw [View.read_apply]
  show V m c main_arg0 _ = m ((c : Thread nD τ).loc main_arg0) i
  rw [V_main_arg0]
  congr 1
  funext a; apply Fin.ext
  match a with
  | ⟨0, _⟩ => show win0_0.index t (0 : Fin 3) * 1 + 1 * (x 0).val = (i 0).val; omega
  | ⟨1, _⟩ => show win0_0.index t (1 : Fin 3) * 64 + 1 * (x 1).val = (i 1).val; omega
  | ⟨2, _⟩ => show win0_0.index t (2 : Fin 3) * 8192 + 1 * (x 2).val = (i 2).val; omega

/-! ## What a point stores is its block of the one function -/

theorem stored_block_eq (c : Dev nD) (t : Fin cfg0.N) :
    (dats m 0 c).flushed 7 t = ((cfg0.win 7).blk t).view.read (Elt Ideal) (G m c) := by
  rw [Value.flushed7]
  obtain ⟨e0, e1, e2, e3, e4, e5⟩ := tile_index_facts t
  funext y
  show out0_7 (iblk m c 0 t) (iblk m c 1 t) (iblk m c 2 t) (iblk m c 3 t) (iblk m c 4 t) (iblk m c 5 t) (iblk m c 6 t) y
    = G m c (((cfg0.win 7).blk t).view.emb y)
  rw [table_block m c t, bias_block m c t, featW_block m c t, featB_block m c t, maskW_block m c t, maskB_block m c t,
    V_table m c, V_bias m c, V_featW m c, V_featB m c, V_maskW m c, V_maskB m c]
  obtain ⟨u, k, j, rfl⟩ : ∃ (u : Fin 1) (k : Fin 19) (j : Fin 8192), y = ix3 u k j := ⟨y 0, y 1, y 2, eq_ix3 y⟩
  rw [out_tables]
  unfold G
  have hk : ((cfg0.win 7).blk t).view.emb (ix3 u k j) 1 = k :=
    Fin.ext (by show win0_7.index t (1 : Fin 3) * 19 + 1 * k.val = k.val; omega)
  have hcol : colOf (iblk m c 0 t) j = fun d => (m ((c : Thread nD τ).loc main_arg0) : S8x64x32768.Idx → EReal)
      (ix3 (((cfg0.win 7).blk t).view.emb (ix3 u k j) 0 : Fin 8) d
        (((cfg0.win 7).blk t).view.emb (ix3 u k j) 2 : Fin 32768)) :=
    funext fun d => tile_apply m c t (ix3 0 d j) _
      (by show win0_7.index t (0 : Fin 3) * 1 + 1 * u.val = win0_0.index t (0 : Fin 3) * 1 + 0
          have := u.isLt; omega)
      (by show d.val = win0_0.index t (1 : Fin 3) * 64 + d.val; omega)
      (by show win0_7.index t (2 : Fin 3) * 8192 + 1 * j.val = win0_0.index t (2 : Fin 3) * 8192 + j.val; omega)
  rw [hcol, hk]

/-! ## The blocks tile the result array -/

/-- An index of the array is in point t's block iff each coordinate is in the block's range on its axis. -/
theorem mem_block (t : Fin cfg0.N) (i : S8x19x32768.Idx) :
    i ∈ ((cfg0.win 7).blk t).view.set ↔ ∀ a : Fin 3, win0_7.index t a * S1x19x8192.size a ≤ (i a).val
      ∧ (i a).val < win0_7.index t a * S1x19x8192.size a + S1x19x8192.size a := by
  show i ∈ ((View.whole main_v33).slice (win0_7.rect t)).set ↔ _
  rw [View.set_slice_whole, Rect.mem_set_unit]
  exact Iff.rfl

/-- Element (b, k, n) is in the block of the point whose block index is (b, 0, n / 8192). -/
theorem covered (i : S8x19x32768.Idx) :
    ∃ t : Fin cfg0.N, (cfg0.win 7).flush t = true ∧ i ∈ ((cfg0.win 7).blk t).view.set := by
  have hi0 : (i 0).val < 8 := (i 0).isLt
  have hi1 : (i 1).val < 19 := (i 1).isLt
  have hi2 : (i 2).val < 32768 := (i 2).isLt
  obtain ⟨t, ht⟩ := index_onto ⟨(i 0).val, hi0⟩ ⟨(i 2).val / 8192, by omega⟩
  have q0 : win0_7.index t (0 : Fin 3) = (i 0).val := congrFun ht 0
  have q1 : win0_7.index t (1 : Fin 3) = 0 := congrFun ht 1
  have q2 : win0_7.index t (2 : Fin 3) = (i 2).val / 8192 := congrFun ht 2
  refine ⟨t, flush0_7 t, ?_⟩
  rw [mem_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 19 ≤ (i 1).val ∧ (i 1).val < win0_7.index t (1 : Fin 3) * 19 + 19; omega
  | ⟨2, _⟩ => show win0_7.index t (2 : Fin 3) * 8192 ≤ (i 2).val ∧ (i 2).val < win0_7.index t (2 : Fin 3) * 8192 + 8192; omega

/-! ## The array after the run, and the run -/

/-- The result array after the run is the one function of the arguments. -/
theorem final (c : Dev nD) : (dats m 0 c).arrAt 7 cfg0.N = G m c :=
  (dats m 0 c).arrAt_eq_of_cover 7 (G m c) (fun t _ => stored_block_eq m c t) covered

/-- The run: the result array at the one function of the arguments, the seven arguments unchanged. -/
theorem run : θ_run defs (onTc (τ := τ) (main (F := Ideal))) ⟨m, fun _ => 0, ρ⟩ fun r => ∀ c : Dev nD,
      r.2.mem ((c : Thread nD τ).loc main_v33) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Gmm.Final

end
-- ==== Proof.LibFlattenRows.lean ====
/-
  Flattening the two leading axes of a rank-3 array, and un-flattening them.

  Row-major order does not change when the axes `a` and `b` of an `[a, b, c]` array are merged into one axis of
  extent `n = a·b`: entry `(x, y, z)` of the rank-3 array and entry `(x·b + y, z)` of the matrix sit at the same
  position `(x·b + y)·c + z`. So a reshape in either direction reads the operand at the matching index, for any
  element type and any extents.
-/
import Idealize.ShloMosaic.Lib.Pipeline.Value
import Idealize.ShloMosaic.Lib.ValueIdx

namespace Cert.Lib

open Idealize.ShloMosaic Idealize.ShloMosaic.ValueIdx

variable {α : Type}

/-- An `[a, b, c]` array reshaped to `[n, c]` reads, at row `r = x·b + y` and column `z`, the operand at `(x, y, z)`. -/
theorem shapeCast_abc_nc_apply {a b c n : ℕ} (X : (⟨3, ![a, b, c]⟩ : Shape).Idx → α)
    (h : (⟨3, ![a, b, c]⟩ : Shape).ShapeCasts ⟨2, ![n, c]⟩) (x : Fin a) (y : Fin b) (z : Fin c) (r : Fin n)
    (hr : r.val = x.val * b + y.val) : shapeCast ⟨2, ![n, c]⟩ X h (ix2 r z) = X (ix3 x y z) :=
  shapeCast_apply X h _ _ (by
    rw [Shape.rowMajor_val_three, Shape.rowMajor_val_two]
    show (x.val * b + y.val) * c + z.val = r.val * c + z.val
    rw [hr])

/-- An `[n, c]` matrix reshaped to `[a, b, c]` reads, at `(x, y, z)`, the operand at row `r = x·b + y`, column `z`. -/
theorem shapeCast_nc_abc_apply {a b c n : ℕ} (Y : (⟨2, ![n, c]⟩ : Shape).Idx → α)
    (h : (⟨2, ![n, c]⟩ : Shape).ShapeCasts ⟨3, ![a, b, c]⟩) (x : Fin a) (y : Fin b) (z : Fin c) (r : Fin n)
    (hr : r.val = x.val * b + y.val) : shapeCast ⟨3, ![a, b, c]⟩ Y h (ix3 x y z) = Y (ix2 r z) :=
  shapeCast_apply Y h _ _ (by
    rw [Shape.rowMajor_val_two, Shape.rowMajor_val_three]
    show r.val * c + z.val = (x.val * b + y.val) * c + z.val
    rw [hr])

end Cert.Lib
-- ==== Proof.LibHostRowMax.lean ====
/-
  A maximum over the last axis of a three-axis array, on the extended reals.

  A reduction by maximum that starts from negative infinity is the supremum of the entries that are folded
  into a result entry: max is commutative and associative, so the order of the fold is immaterial, and the
  starting value is the least element. This file reads such a reduction of an `A × B × C` array over its last
  axis at a result index `(a, b)`: the supremum over `k < C` of the entries `(a, b, k)`, for any extents.
-/
import Idealize.ShloMosaic.PureOps.Ideal.Laws
import Idealize.ShloMosaic.Lib.ValueIdx

noncomputable section

namespace Idealize.ShloMosaic.RowMax

open Idealize.ShloMosaic Idealize.ShloMosaic.ValueIdx

/-- The f32 word of negative infinity denotes the least extended real. -/
theorem ofBits_negInf : Ideal.ofBits .f32 0xFF800000#32 = (⊥ : EReal) := by simp [Ideal.ofBits, Ideal.ieee]

/-- Of three axes, the ones other than the last are 0 and 1, whatever the extents. -/
theorem kept_axis2 {A B C : Nat} : (⟨3, ![A, B, C]⟩ : Shape).kept [2] = [0, 1] := by
  show (List.finRange 3).filter (· ∉ ([2] : List (Fin 3))) = [0, 1]
  decide

theorem kept_axis2_fst {A B C : Nat} (hh : 0 < ((⟨3, ![A, B, C]⟩ : Shape).kept [2]).length) :
    ((⟨3, ![A, B, C]⟩ : Shape).kept [2])[0] = 0 := by
  revert hh; rw [kept_axis2]; intro _; rfl

theorem kept_axis2_snd {A B C : Nat} (hh : 1 < ((⟨3, ![A, B, C]⟩ : Shape).kept [2]).length) :
    ((⟨3, ![A, B, C]⟩ : Shape).kept [2])[1] = 1 := by
  revert hh; rw [kept_axis2]; intro _; rfl

/-- A host maximum over the last axis of an `A × B × C` array, from an initial value that is negative infinity, at
    `(a, b)`: the supremum over `k < C` of the entries `(a, b, k)`. -/
theorem hostReduce_max_axis2_rank3 {A B C : Nat} (y : (⟨3, ![A, B, C]⟩ : Shape).Idx → EReal) {u : Shape}
    (init : u.Idx → EReal) (h' : (⟨3, ![A, B, C]⟩ : Shape).ReducesTo [2] ⟨2, ![A, B]⟩) (hu : 0 < u.numel)
    (hinit : init (Shape.Idx.first hu) = ⊥) (a : Fin A) (b : Fin B) :
    Host.reduce (FloatOps.maximumf (F := Ideal) (φ := .f32)) y init h' hu (ix2 a b)
      = (Finset.univ : Finset (Fin C)).sup fun k => y (ix3 a b k) := by
  rw [Host.reduce_eq_fold, hinit]
  have hd : ∀ i : (⟨3, ![A, B, C]⟩ : Shape).Idx, h'.drop i = ix2 (i 0 : Fin A) (i 1 : Fin B) := fun i => by
    funext b'
    match b' with
    | ⟨0, _⟩ => exact Fin.ext (h'.drop_apply_val_of_eq i 0 0 (by rw [kept_axis2]; exact Nat.zero_lt_two) (kept_axis2_fst _))
    | ⟨1, _⟩ => exact Fin.ext (h'.drop_apply_val_of_eq i 1 1 (by rw [kept_axis2]; exact Nat.one_lt_two) (kept_axis2_snd _))
  show (Finset.univ.filter fun i => h'.drop i = ix2 a b).sup y = _
  apply le_antisymm
  · apply Finset.sup_le
    intro i hi
    have hi2 := (Finset.mem_filter.1 hi).2
    rw [hd] at hi2
    have e0 : (i 0 : Fin A) = a := congrFun hi2 0
    have e1 : (i 1 : Fin B) = b := congrFun hi2 1
    have ei : i = ix3 a b (i 2 : Fin C) := by rw [← e0, ← e1]; exact eq_ix3 i
    rw [ei]
    exact Finset.le_sup (f := fun k : Fin C => y (ix3 a b k)) (Finset.mem_univ (i 2 : Fin C))
  · apply Finset.sup_le
    intro k _
    exact Finset.le_sup (f := y) (Finset.mem_filter.2 ⟨Finset.mem_univ _, (hd _).trans rfl⟩)

end Idealize.ShloMosaic.RowMax

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefRead1.lean ====
/-
  The reference program's intermediate arrays, read entry by entry (first part).

  The reference flattens the pixels (b, n) of the [8, 64, 32768] feature array into the rows r = b · 32768 + n of a
  [262144, 64] matrix, normalises every row twice (to zero mean and unit variance over its 64 entries, scaled and
  shifted; then to unit Euclidean length), flattens the components (k, p) of the [19, 5, 64] mean and deviation
  arrays into the rows kp = k · 5 + p of [95, 64] matrices, and assembles each component's log-density from two
  matrix products and two row sums. This file reads every one of these arrays at an index, as the function of the
  arguments' entries that the specification names: a row of the pixel matrix is the pixel's column, its mean, its
  centred, standardised and unit-length versions are fmean, fhat and xn of that column, a row of the component
  matrices is mun, the deviations and inv2 of that component, and the largest of a class's five log-densities is the
  supremum over p of logpR.
-/
import proofs.«109077_j2095944040758_2_alg».proof.Proof.Gen.ReferenceIdeal.Run
import proofs.«109077_j2095944040758_2_alg».proof.Proof.Spec
import proofs.«109077_j2095944040758_2_alg».proof.Proof.LibFlattenRows
import proofs.«109077_j2095944040758_2_alg».proof.Proof.LibDot
import proofs.«109077_j2095944040758_2_alg».proof.Proof.LibHostRowMax
import proofs.«109077_j2095944040758_2_alg».proof.Proof.LibHostRead
import Idealize.ShloMosaic.Lib.ValueIdx
import Idealize.ShloMosaic.Lib.ValueLayout
import Idealize.ShloMosaic.Lib.Pipeline.Value
import Idealize.ShloMosaic.PureOps.Ideal.Laws

noncomputable section

namespace Cert.Gmm.Ref

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.LibHostRead
open scoped BigOperators

/-- A matrix's row sums, kept as a column: at `(r, z)`, the sum of row `r`. -/
theorem rowSumKeep_apply {a b : ℕ} (X : (⟨2, ![a, b]⟩ : Shape).Idx → EReal)
    (h' : (⟨2, ![a, b]⟩ : Shape).ReducesTo [1] ⟨1, ![a]⟩)
    (h1 : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h1
        (Host.reduceAdd (F := Ideal) (φ := .f32) X (constant S_ .f32 0x00000000#32) h' h_S_) (ix2 r z)
      = ∑ d : Fin b, X (ix2 r d) :=
  (bcast_a_a1_apply _ h1 r z).trans (hostSumAxis1_apply X _ h' h_S_ Ideal.ofBits_zero_f32 r)

/-! ## The reference's named buffers at an index

  Row `r = b · 32768 + n` of the flattened pixel matrix is pixel `(b, n)`; row `kp = k · 5 + p` of the flattened
  component matrices is component `p` of class `k`. -/

variable (V0 : Valuation τ sig (Elt Ideal))

/-- The arguments' entries, by coordinates. -/
abbrev colOf (b : Fin 8) (n : Fin 32768) : Fin 64 → EReal := fun d => V0 (Proc.devRef .tc main_arg0) (ix3 b d n)
abbrev fwOf : Fin 64 → EReal := fun d => V0 (Proc.devRef .tc main_arg3) (ix1 d)
abbrev fbOf : Fin 64 → EReal := fun d => V0 (Proc.devRef .tc main_arg4) (ix1 d)
abbrev muOf : Fin 19 → Fin 5 → Fin 64 → EReal := fun k p d => V0 (Proc.devRef .tc main_arg1) (ix3 k p d)
abbrev sdOf : Fin 19 → Fin 5 → Fin 64 → EReal := fun k p d => V0 (Proc.devRef .tc main_arg2) (ix3 k p d)
abbrev mwOf : Fin 19 → EReal := fun k => V0 (Proc.devRef .tc main_arg5) (ix1 k)
abbrev mbOf : Fin 19 → EReal := fun k => V0 (Proc.devRef .tc main_arg6) (ix1 k)

/-- The flattened pixel matrix: row `r` is the pixel's column. -/
theorem v1_apply (r : Fin 262144) (b : Fin 8) (n : Fin 32768) (hr : r.val = b.val * 32768 + n.val) (d : Fin 64) :
    res_main_v1 V0 (ix2 r d) = colOf V0 b n d :=
  (Cert.Lib.shapeCast_abc_nc_apply _ shapeCasts_S8x32768x64_S262144x64 b n d r hr).trans
    (transpose_ix3_021_apply _ transposes_S8x64x32768_S8x32768x64_0_2_1 b n d)

/-- The row means. -/
theorem v5_apply (r : Fin 262144) (b : Fin 8) (n : Fin 32768) (hr : r.val = b.val * 32768 + n.val) (z : Fin 1) :
    res_main_v5 V0 (ix2 r z) = fmean (colOf V0 b n) := by
  refine (congrArg₂ Ideal.div (rowSumKeep_apply (res_main_v1 V0) reducesTo_S262144x64_S262144_d1 bcast_S262144_S262144x1_0 r z)
    (bcastConst_apply _ bcast_S_S262144x1 0x42800000#32 (ix2 r z))).trans ?_
  exact congrArg (fun s => Ideal.div s c64) (Finset.sum_congr rfl fun d _ => v1_apply V0 r b n hr d)

/-- The centred entries. -/
theorem v7_apply (r : Fin 262144) (b : Fin 8) (n : Fin 32768) (hr : r.val = b.val * 32768 + n.val) (d : Fin 64) :
    res_main_v7 V0 (ix2 r d) = colOf V0 b n d - fmean (colOf V0 b n) := by
  unfold res_main_v7
  rw [subf_apply, bcast_a1_ab_apply, v1_apply V0 r b n hr, v5_apply V0 r b n hr]

/-- The standardised, scaled and shifted entries. -/
theorem v25_apply (r : Fin 262144) (b : Fin 8) (n : Fin 32768) (hr : r.val = b.val * 32768 + n.val) (d : Fin 64) :
    res_main_v25 V0 (ix2 r d) = fhat (colOf V0 b n) (fwOf V0) (fbOf V0) d := by
  unfold res_main_v25
  rw [addf_apply, mulf_apply, mulf_apply, subf_apply, bcast_a1_ab_apply, bcast_a1_ab_apply, bcastRow_apply, bcastRow_apply,
    hostRsqrt_apply, addf_apply, hostDivf_apply, rowSumKeep_apply, bcastConst_apply, bcastConst_apply,
    v1_apply V0 r b n hr, v5_apply V0 r b n hr]
  simp only [mulf_apply, v7_apply V0 r b n hr]
  rfl

/-- The unit-length column. -/
theorem v33_apply (r : Fin 262144) (b : Fin 8) (n : Fin 32768) (hr : r.val = b.val * 32768 + n.val) (d : Fin 64) :
    res_main_v33 V0 (ix2 r d) = xn (colOf V0 b n) (fwOf V0) (fbOf V0) d := by
  unfold res_main_v33
  rw [hostDivf_apply, bcast_a1_ab_apply, maximumf_apply, hostSqrt_apply, rowSumKeep_apply, bcastConst_apply,
    v25_apply V0 r b n hr]
  simp only [mulf_apply, v25_apply V0 r b n hr]
  rfl

/-- The unit-length mean rows, flattened. -/
theorem v42_apply (kp : Fin 95) (k : Fin 19) (p : Fin 5) (hkp : kp.val = k.val * 5 + p.val) (d : Fin 64) :
    res_main_v42 V0 (ix2 kp d) = mun (muOf V0 k p) d := by
  refine (Cert.Lib.shapeCast_abc_nc_apply _ shapeCasts_S19x5x64_S95x64 k p d kp hkp).trans ?_
  rw [hostDivf_apply, bcast_ab1_abc_apply,
    maximumf_apply, hostSqrt_apply, bcast_ab_ab1_apply, hostSumAxis2_apply _ _ _ _ Ideal.ofBits_zero_f32, bcastConst_apply]
  simp only [mulf_apply]
  rfl

/-- The standard deviations, flattened. -/
theorem v43_apply (kp : Fin 95) (k : Fin 19) (p : Fin 5) (hkp : kp.val = k.val * 5 + p.val) (d : Fin 64) :
    res_main_v43 V0 (ix2 kp d) = sdOf V0 k p d :=
  Cert.Lib.shapeCast_abc_nc_apply _ shapeCasts_S19x5x64_S95x64 k p d kp hkp

/-- The reciprocal squared standard deviations. -/
theorem v46_apply (kp : Fin 95) (k : Fin 19) (p : Fin 5) (hkp : kp.val = k.val * 5 + p.val) (d : Fin 64) :
    res_main_v46 V0 (ix2 kp d) = inv2 (sdOf V0 k p) d := by
  unfold res_main_v46
  rw [hostDivf_apply, bcastConst_apply, mulf_apply, v43_apply V0 kp k p hkp]
  rfl

/-! ## The log-densities, their largest per class, and the final normalisation -/

/-- The reference's matrix product at `(r, kp)`: the sum over the 64 contracted coordinates. -/
theorem dot_apply (A : FVec Ideal S262144x64 .f32) (B : FVec Ideal S64x95 .f32) (r : Fin 262144) (kp : Fin 95) :
    Host.dotGeneral dot_S262144x64_S64x95_S262144x95_1_0_0_1_n_n none A B (ix2 r kp)
      = ∑ c : Fin 64, A (ix2 r c) * B (ix2 c kp) :=
  Cert.LibDot.dotGeneral_apply dot_S262144x64_S64x95_S262144x95_1_0_0_1_n_n.wf none A B r kp

/-- The same product when the right operand's column `kp` is known entry by entry. -/
theorem dot_apply' (A : FVec Ideal S262144x64 .f32) (B : FVec Ideal S64x95 .f32) (B' : Fin 64 → EReal) (r : Fin 262144)
    (kp : Fin 95) (hB : ∀ c : Fin 64, B (ix2 c kp) = B' c) :
    Host.dotGeneral dot_S262144x64_S64x95_S262144x95_1_0_0_1_n_n none A B (ix2 r kp)
      = ∑ c : Fin 64, A (ix2 r c) * B' c :=
  (dot_apply A B r kp).trans (Finset.sum_congr rfl fun c _ => congrArg (A (ix2 r c) * ·) (hB c))

/-- The flattened component matrices transposed: at `(c, kp)`, the matrix at `(kp, c)`. -/
theorem tr_apply {α : Type} (X : S95x64.Idx → α) (c : Fin 64) (kp : Fin 95) :
    transpose S64x95 [1, 0] X transposes_S95x64_S64x95_1_0 (ix2 c kp) = X (ix2 kp c) :=
  transpose_ix2_apply X transposes_S95x64_S64x95_1_0 c kp

/-- A rank-zero array broadcast to any shape reads its one entry. -/
theorem bcastScalar_apply {α : Type} {t : Shape} (dims : Fin S_.rank → Fin t.rank) (h : S_.BroadcastsInDim t dims)
    (x : S_.Idx → α) (j : t.Idx) : broadcastInDim t dims h x j = x ix0 :=
  broadcastInDim_apply dims h x j ix0 fun a => a.elim0

/-- A pixel's nineteen class scores: the largest of each class's five log-densities. -/
abbrev mOf (b : Fin 8) (n : Fin 32768) : Fin 19 → EReal := fun k =>
  (Finset.univ : Finset (Fin 5)).sup fun p => logpR (muOf V0 k p) (sdOf V0 k p) (xn (colOf V0 b n) (fwOf V0) (fbOf V0))

theorem v75_apply (r : Fin 262144) (b : Fin 8) (n : Fin 32768) (hr : r.val = b.val * 32768 + n.val) (k : Fin 19) :
    res_main_v75 V0 (ix2 r k) = mOf V0 b n k := by
  unfold res_main_v75
  rw [Idealize.ShloMosaic.RowMax.hostReduce_max_axis2_rank3 _ _ _ h_S_ Idealize.ShloMosaic.RowMax.ofBits_negInf r k]
  refine Finset.sup_congr (α := EReal) rfl fun p _ => ?_
  obtain ⟨kp, hkp⟩ : ∃ kp : Fin 95, kp.val = k.val * 5 + p.val :=
    ⟨⟨k.val * 5 + p.val, by have := k.isLt; have := p.isLt; omega⟩, rfl⟩
  refine (shapeCast_ab_acd_apply _ shapeCasts_S262144x95_S262144x19x5 rfl r k p kp hkp).trans ?_
  have hB1 : ∀ c : Fin 64, transpose S64x95 [1, 0] (res_main_v46 V0) transposes_S95x64_S64x95_1_0 (ix2 c kp)
      = inv2 (sdOf V0 k p) c := fun c => (tr_apply _ c kp).trans (v46_apply V0 kp k p hkp c)
  have hB2 : ∀ c : Fin 64,
      transpose S64x95 [1, 0] (mulf (res_main_v42 V0) (res_main_v46 V0)) transposes_S95x64_S64x95_1_0 (ix2 c kp)
        = mun (muOf V0 k p) c * inv2 (sdOf V0 k p) c := fun c =>
    (tr_apply _ c kp).trans (congrArg₂ (· * ·) (v42_apply V0 kp k p hkp c) (v46_apply V0 kp k p hkp c))
  rw [subf_apply, mulf_apply, bcastConst_apply, addf_apply, subf_apply, dot_apply' _ _ _ r kp hB1, mulf_apply,
    bcastConst_apply, dot_apply' _ _ _ r kp hB2,
    bcastRow_apply, bcastRow_apply, hostSumAxis1_apply _ _ _ _ Ideal.ofBits_zero_f32, addf_apply,
    hostSumAxis1_apply _ _ _ _ Ideal.ofBits_zero_f32, bcastScalar_apply]
  simp only [mulf_apply, hostLog_apply, v33_apply V0 r b n hr, v42_apply V0 kp k p hkp, v46_apply V0 kp k p hkp,
    v43_apply V0 kp k p hkp]
  rfl

end Cert.Gmm.Ref

end
-- ==== Proof.RefRead.lean ====
/-
  The reference program's result, read entry by entry (second part).

  A pixel's nineteen class scores (the largest of each class's five log-densities, read in the first part) are
  normalised to zero mean and unit variance over the nineteen, scaled and shifted; the [262144, 19] matrix of
  normalised scores is reshaped to [8, 32768, 19] and its last two axes exchanged. So the result at (b, k, n) is the
  normalised score of class k at the pixel whose row is r = b · 32768 + n: the specification's `outR` of the
  arguments' entries.
-/
import proofs.«109077_j2095944040758_2_alg».proof.Proof.RefRead1

noncomputable section

namespace Cert.Gmm.Ref

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo
open Cert.LibHostRead
open scoped BigOperators

variable (V0 : Valuation τ sig (Elt Ideal))

/-- The mean of a pixel's scores. -/
theorem v79_apply (r : Fin 262144) (b : Fin 8) (n : Fin 32768) (hr : r.val = b.val * 32768 + n.val) (z : Fin 1) :
    res_main_v79 V0 (ix2 r z) = kmean (mOf V0 b n) := by
  unfold res_main_v79
  rw [hostDivf_apply, rowSumKeep_apply, bcastConst_apply]
  simp only [v75_apply V0 r b n hr]
  rfl

/-- The centred scores. -/
theorem v81_apply (r : Fin 262144) (b : Fin 8) (n : Fin 32768) (hr : r.val = b.val * 32768 + n.val) (k : Fin 19) :
    res_main_v81 V0 (ix2 r k) = mOf V0 b n k - kmean (mOf V0 b n) := by
  unfold res_main_v81
  rw [subf_apply, bcast_a1_ab_apply, v75_apply V0 r b n hr, v79_apply V0 r b n hr]

/-- The result term of the generated run, as a function of the valuation. -/
def refTerm (V0 : Valuation τ sig (Elt Ideal)) : (Proc.devRef .tc main_v101 : DevRef τ sig).ty.Contents (Elt Ideal) :=
  transpose S8x19x32768 [0, 2, 1] (shapeCast _ (addf (mulf (mulf (subf (res_main_v75 V0) (broadcastInDim S262144x19 ![0, 1] bcast_S262144x1_S262144x19_0_1 (res_main_v79 V0))) (broadcastInDim S262144x19 ![0, 1] bcast_S262144x1_S262144x19_0_1 (Host.rsqrt (addf (Host.divf (broadcastInDim S262144x1 ![0] bcast_S262144_S262144x1_0 (Host.reduceAdd (mulf (res_main_v81 V0) (res_main_v81 V0)) (constant S_ .f32 0x00000000#32) reducesTo_S262144x19_S262144_d1 h_S_)) (broadcastInDim S262144x1 ![] bcast_S_S262144x1 (constant S_ .f32 0x41980000#32))) (broadcastInDim S262144x1 ![] bcast_S_S262144x1 (constant S_ .f32 0x3727C5AC#32)))))) (broadcastInDim S262144x19 ![0, 1] bcast_S1x19_S262144x19_0_1 (broadcastInDim S1x19 ![1] bcast_S19_S1x19_1 (V0 (Proc.devRef .tc main_arg5))))) (broadcastInDim S262144x19 ![0, 1] bcast_S1x19_S262144x19_0_1 (broadcastInDim S1x19 ![1] bcast_S19_S1x19_1 (V0 (Proc.devRef .tc main_arg6))))) shapeCasts_S262144x19_S8x32768x19) transposes_S8x32768x19_S8x19x32768_0_2_1

/-- The last normalisation, for any score matrix: if row `r` of `X` is `m`, of the column `M` its mean and of `D` the
    centred scores, then the scaled and shifted standardisation reads, at `(r, k)`, `kout m` of the scale and shift. -/
theorem norm19_apply (X D : FVec Ideal S262144x19 .f32) (M : FVec Ideal S262144x1 .f32) (W B : FVec Ideal S19 .f32)
    (r : Fin 262144) (m : Fin 19 → EReal) (hX : ∀ k, X (ix2 r k) = m k) (hM : M (ix2 r (0 : Fin 1)) = kmean m)
    (hD : ∀ k, D (ix2 r k) = m k - kmean m) (k : Fin 19) :
    addf (mulf (mulf (subf X (broadcastInDim S262144x19 ![0, 1] bcast_S262144x1_S262144x19_0_1 M)) (broadcastInDim S262144x19 ![0, 1] bcast_S262144x1_S262144x19_0_1 (Host.rsqrt (addf (Host.divf (broadcastInDim S262144x1 ![0] bcast_S262144_S262144x1_0 (Host.reduceAdd (mulf D D) (constant S_ .f32 0x00000000#32) reducesTo_S262144x19_S262144_d1 h_S_)) (broadcastInDim S262144x1 ![] bcast_S_S262144x1 (constant S_ .f32 0x41980000#32))) (broadcastInDim S262144x1 ![] bcast_S_S262144x1 (constant S_ .f32 0x3727C5AC#32)))))) (broadcastInDim S262144x19 ![0, 1] bcast_S1x19_S262144x19_0_1 (broadcastInDim S1x19 ![1] bcast_S19_S1x19_1 W))) (broadcastInDim S262144x19 ![0, 1] bcast_S1x19_S262144x19_0_1 (broadcastInDim S1x19 ![1] bcast_S19_S1x19_1 B)) (ix2 r k)
      = kout m (fun k' => W (ix1 k')) (fun k' => B (ix1 k')) k := by
  rw [addf_apply, mulf_apply, mulf_apply, subf_apply, bcast_a1_ab_apply, bcast_a1_ab_apply, bcastRow_apply, bcastRow_apply,
    hostRsqrt_apply, addf_apply, hostDivf_apply, rowSumKeep_apply, bcastConst_apply, bcastConst_apply, hX, hM]
  simp only [mulf_apply, hD]
  rfl

/-- The reference's result at pixel `(b, n)` and class `k`, as the function of the arguments' entries. -/
theorem refTerm_apply (V0 : Valuation Cert.ReferenceIdeal.τ Cert.ReferenceIdeal.sig (Elt Ideal)) (b : Fin 8) (k : Fin 19) (n : Fin 32768) :
    refTerm V0 (ix3 b k n)
      = Cert.Gmm.outR (fun d => V0 (Proc.devRef .tc main_arg0) (ix3 b d n)) (fun d => V0 (Proc.devRef .tc main_arg3) (ix1 d))
          (fun d => V0 (Proc.devRef .tc main_arg4) (ix1 d))
          (fun k' p d => V0 (Proc.devRef .tc main_arg1) (ix3 k' p d)) (fun k' p d => V0 (Proc.devRef .tc main_arg2) (ix3 k' p d))
          (fun k' => V0 (Proc.devRef .tc main_arg5) (ix1 k')) (fun k' => V0 (Proc.devRef .tc main_arg6) (ix1 k')) k := by
  obtain ⟨r, hr⟩ : ∃ r : Fin 262144, r.val = b.val * 32768 + n.val :=
    ⟨⟨b.val * 32768 + n.val, by have := b.isLt; have := n.isLt; omega⟩, rfl⟩
  unfold refTerm
  refine (transpose_ix3_021_apply _ transposes_S8x32768x19_S8x19x32768_0_2_1 b k n).trans ?_
  refine (Cert.Lib.shapeCast_nc_abc_apply _ shapeCasts_S262144x19_S8x32768x19 b n k r hr).trans ?_
  exact norm19_apply (res_main_v75 V0) (res_main_v81 V0) (res_main_v79 V0) (V0 (Proc.devRef .tc main_arg5))
    (V0 (Proc.devRef .tc main_arg6)) r (mOf V0 b n) (v75_apply V0 r b n hr) (v79_apply V0 r b n hr 0)
    (v81_apply V0 r b n hr) k

/-- The run's result term is `refTerm` of the launch contents. -/
theorem refTerm_eq (m : (ℓ : Loc nD τ sig) → Buf (Elt Ideal) ℓ) (c : Dev nD) :
    transpose S8x19x32768 [0, 2, 1] (shapeCast _ (addf (mulf (mulf (subf (res_main_v75 (launchContents m c)) (broadcastInDim S262144x19 ![0, 1] bcast_S262144x1_S262144x19_0_1 (res_main_v79 (launchContents m c)))) (broadcastInDim S262144x19 ![0, 1] bcast_S262144x1_S262144x19_0_1 (Host.rsqrt (addf (Host.divf (broadcastInDim S262144x1 ![0] bcast_S262144_S262144x1_0 (Host.reduceAdd (mulf (res_main_v81 (launchContents m c)) (res_main_v81 (launchContents m c))) (constant S_ .f32 0x00000000#32) reducesTo_S262144x19_S262144_d1 h_S_)) (broadcastInDim S262144x1 ![] bcast_S_S262144x1 (constant S_ .f32 0x41980000#32))) (broadcastInDim S262144x1 ![] bcast_S_S262144x1 (constant S_ .f32 0x3727C5AC#32)))))) (broadcastInDim S262144x19 ![0, 1] bcast_S1x19_S262144x19_0_1 (broadcastInDim S1x19 ![1] bcast_S19_S1x19_1 ((launchContents m c) (Proc.devRef .tc main_arg5))))) (broadcastInDim S262144x19 ![0, 1] bcast_S1x19_S262144x19_0_1 (broadcastInDim S1x19 ![1] bcast_S19_S1x19_1 ((launchContents m c) (Proc.devRef .tc main_arg6))))) shapeCasts_S262144x19_S8x32768x19) transposes_S8x32768x19_S8x19x32768_0_2_1 = refTerm (launchContents m c) := rfl

end Cert.Gmm.Ref

end
-- ==== Proof.lean ====
/-
  A Gaussian-mixture segmentation head, kernel against reference, on the extended reals.

  Each pixel's 64 features are standardised (zero mean, unit variance, scaled and shifted feature by feature) and
  brought to unit length. Each of 19 classes has five diagonal Gaussian components; a class's score is the largest of
  its components' log-densities at the unit column, and a pixel's nineteen scores are standardised again.

  The reference assembles the quadratic form  Σ x²/s² − 2 Σ x μ/s² + Σ μ²/s²  and halves it, and subtracts
  Σ log s + 32 · log(2π) with 2π a float literal. The kernel folds −1/2 into the coefficient table, keeps the three
  sums apart (two of them in one product over 128 coefficients, the third in a per-component constant), and uses a
  literal for 32 · log(2π). With real entries the two arrangements of the quadratic form agree by distributivity; the
  two constants differ, by the same real for every class and component, so every score of a pixel moves by that one
  real, the maximum over components moves with it, and the final standardisation, which subtracts the mean of the
  nineteen scores, does not see the shift. Distributivity and the cancellation both need real (finite) terms: the
  inputs are finite by the precondition, and the standard deviations are positive, so 1/s² and log s are real too.

  Kernel side: the body's stages read at an index (KBody1, KBody2), the host's tables (KHost), the block a grid point
  stores (KOut), the blocks assembled into the result array (KFinal). Reference side: the host program's run read at
  an index (RefRead). The algebra between the two arrangements is Algebra; PreReal turns the precondition into
  "every entry is real, every standard deviation positive".
-/
import proofs.«109077_j2095944040758_2_alg».proof.Defs
import proofs.«109077_j2095944040758_2_alg».proof.Proof.Gen.Kernel
import proofs.«109077_j2095944040758_2_alg».proof.Proof.Gen.Kernel.Skeleton
import proofs.«109077_j2095944040758_2_alg».proof.Proof.Gen.Kernel.Launch
import proofs.«109077_j2095944040758_2_alg».proof.Proof.Gen.Kernel.Points
import proofs.«109077_j2095944040758_2_alg».proof.Proof.Gen.Kernel.Frame
import proofs.«109077_j2095944040758_2_alg».proof.Proof.Gen.KernelIdeal
import proofs.«109077_j2095944040758_2_alg».proof.Proof.Gen.KernelIdeal.Skeleton
import proofs.«109077_j2095944040758_2_alg».proof.Proof.Gen.KernelIdeal.Launch
import proofs.«109077_j2095944040758_2_alg».proof.Proof.Gen.KernelIdeal.Points
import proofs.«109077_j2095944040758_2_alg».proof.Proof.Gen.KernelIdeal.Frame
import proofs.«109077_j2095944040758_2_alg».proof.Proof.Gen.ReferenceIdeal
import proofs.«109077_j2095944040758_2_alg».proof.Proof.Gen.Pre_finite_inputs
import proofs.«109077_j2095944040758_2_alg».proof.Proof.Gen.KernelIdeal.Value
import proofs.«109077_j2095944040758_2_alg».proof.Proof.Gen.ReferenceIdeal.Run
import proofs.«109077_j2095944040758_2_alg».proof.Proof.Algebra
import proofs.«109077_j2095944040758_2_alg».proof.Proof.PreReal
import proofs.«109077_j2095944040758_2_alg».proof.Proof.KFinal
import proofs.«109077_j2095944040758_2_alg».proof.Proof.RefRead
import Idealize.ShloMosaic.Adequacy
import Idealize.ShloMosaic.Init

noncomputable section

namespace Cert.Proof

open Idealize.ShloMosaic Idealize.ShloMosaic.ValueIdx Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same array: at (b, k, n) the kernel's is the expanded arrangement and the
    reference's the assembled one, of the same pixel column and the same tables, whose entries are real and whose
    standard deviations are positive by the precondition. -/
theorem algebraic : Cert.algebraic_KernelIdeal_ReferenceIdeal := by
  intro m ρ m' ρ' hpre hagree
  refine ⟨fun c => Cert.Gmm.Final.G m c, Cert.Gmm.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Gmm.Pre.real_of_pre _ _ _ _ _ _ _ (hpre c)
  obtain ⟨e0, e1, e2, e3, e4, e5, e6⟩ := hagree c
  show Cert.Gmm.Ref.refTerm (StableHlo.launchContents m' c) = Cert.Gmm.Final.G m c
  funext i
  obtain ⟨b, k, n, rfl⟩ : ∃ (b : Fin 8) (k : Fin 19) (n : Fin 32768), i = ix3 b k n := ⟨i 0, i 1, i 2, eq_ix3 i⟩
  rw [Cert.Gmm.Ref.refTerm_apply]
  have f0 : StableHlo.launchContents m' c (Proc.devRef .tc Cert.ReferenceIdeal.main_arg0) = _ := e0
  have f1 : StableHlo.launchContents m' c (Proc.devRef .tc Cert.ReferenceIdeal.main_arg1) = _ := e1
  have f2 : StableHlo.launchContents m' c (Proc.devRef .tc Cert.ReferenceIdeal.main_arg2) = _ := e2
  have f3 : StableHlo.launchContents m' c (Proc.devRef .tc Cert.ReferenceIdeal.main_arg3) = _ := e3
  have f4 : StableHlo.launchContents m' c (Proc.devRef .tc Cert.ReferenceIdeal.main_arg4) = _ := e4
  have f5 : StableHlo.launchContents m' c (Proc.devRef .tc Cert.ReferenceIdeal.main_arg5) = _ := e5
  have f6 : StableHlo.launchContents m' c (Proc.devRef .tc Cert.ReferenceIdeal.main_arg6) = _ := e6
  rw [f0, f1, f2, f3, f4, f5, f6]
  exact (Cert.Gmm.outK_eq_outR _ _ _ _ _ _ _ (fun d => h0 _) (fun d => h3 _) (fun d => h4 _) (fun k' p d => h1 _)
    (fun k' p d => h2 _) k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
